-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x8 : Shape := ⟨2, ![4194304, 8]⟩
abbrev S_ : Shape := ⟨0, ![]⟩

class Facts : Prop where
  bcast_S_S4194304x8 : S_.BroadcastsInDim S4194304x8 (![] : Fin 0 → Fin S4194304x8.rank)
  reducesTo_S4194304x8_S_d0_1 : S4194304x8.ReducesTo [0, 1] S_
  h_S_ : 0 < S_.numel

variable [Facts]

def fn {F : FTy → Type} [FloatOps F] (main_arg0 : FVec F S4194304x8 .f32) (main_arg1 : FVec F S4194304x8 .f32) (main_arg2 : FVec F S4194304x8 .f32) : IVec S_ 1 :=
  let main_v0 : FVec F S4194304x8 .f32 := Host.absf main_arg0
  let main_cst : FVec F S_ .f32 := constant S_ .f32 0x7F800000#32
  let main_v1 : FVec F S4194304x8 .f32 := broadcastInDim S4194304x8 ![] bcast_S_S4194304x8 main_cst
  let main_v2 : IVec S4194304x8 1 := cmpf .olt main_v0 main_v1
  let main_c : IVec S_ 1 := constantI S_ 1 1#1
  let main_v3 : IVec S_ 1 := (fun x v => Host.reduce IntOp.andi x v reducesTo_S4194304x8_S_d0_1 h_S_) main_v2 main_c
  let main_v4 : FVec F S4194304x8 .f32 := Host.absf main_arg1
  let main_cst_0 : FVec F S_ .f32 := constant S_ .f32 0x7F800000#32
  let main_v5 : FVec F S4194304x8 .f32 := broadcastInDim S4194304x8 ![] bcast_S_S4194304x8 main_cst_0
  let main_v6 : IVec S4194304x8 1 := cmpf .olt main_v4 main_v5
  let main_c_1 : IVec S_ 1 := constantI S_ 1 1#1
  let main_v7 : IVec S_ 1 := (fun x v => Host.reduce IntOp.andi x v reducesTo_S4194304x8_S_d0_1 h_S_) main_v6 main_c_1
  let main_v8 : IVec S_ 1 := andi main_v3 main_v7
  let main_v9 : FVec F S4194304x8 .f32 := Host.absf main_arg2
  let main_cst_2 : FVec F S_ .f32 := constant S_ .f32 0x7F800000#32
  let main_v10 : FVec F S4194304x8 .f32 := broadcastInDim S4194304x8 ![] bcast_S_S4194304x8 main_cst_2
  let main_v11 : IVec S4194304x8 1 := cmpf .olt main_v9 main_v10
  let main_c_3 : IVec S_ 1 := constantI S_ 1 1#1
  let main_v12 : IVec S_ 1 := (fun x v => Host.reduce IntOp.andi x v reducesTo_S4194304x8_S_d0_1 h_S_) main_v11 main_c_3
  let main_v13 : IVec S_ 1 := andi main_v8 main_v12
  main_v13
-- ==== Kernel.lean ====
abbrev S4194304x8 : Shape := ⟨2, ![4194304, 8]⟩
abbrev S4194304 : Shape := ⟨1, ![4194304]⟩
abbrev S32768x8 : Shape := ⟨2, ![32768, 8]⟩
abbrev S32768 : Shape := ⟨1, ![32768]⟩
abbrev S32768x1 : Shape := ⟨2, ![32768, 1]⟩

abbrev nBuf : Space → Nat
  | .hbm => 4
  | .vmem => 8
  | .smem => 0
  | _ => 0

abbrev bufTy : (tb : Table) → Fin (tcTables nBuf tb) → BufTy
  | .hbm, ⟨0, _⟩ => ⟨S4194304x8, .f32⟩
  | .hbm, ⟨1, _⟩ => ⟨S4194304x8, .f32⟩
  | .hbm, ⟨2, _⟩ => ⟨S4194304x8, .f32⟩
  | .hbm, ⟨3, _⟩ => ⟨S4194304, .f32⟩
  | .local _ .vmem, ⟨0, _⟩ => ⟨S32768x8, .f32⟩
  | .local _ .vmem, ⟨1, _⟩ => ⟨S32768x8, .f32⟩
  | .local _ .vmem, ⟨2, _⟩ => ⟨S32768x8, .f32⟩
  | .local _ .vmem, ⟨3, _⟩ => ⟨S32768x8, .f32⟩
  | .local _ .vmem, ⟨4, _⟩ => ⟨S32768x8, .f32⟩
  | .local _ .vmem, ⟨5, _⟩ => ⟨S32768x8, .f32⟩
  | .local _ .vmem, ⟨6, _⟩ => ⟨S32768, .f32⟩
  | .local _ .vmem, ⟨7, _⟩ => ⟨S32768, .f32⟩
  | _, _ => ⟨S4194304x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S32768x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32768x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32768x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S32768x8_S32768x8_0_0 : ∀ a, (![0, 0] : Fin 2 → Nat) a + S32768x8.size a ≤ S32768x8.size a
  h_S32768x8 : 0 < S32768x8.numel
  reduces_S32768x8_S32768 : S32768x8.Reduces [1] S32768
  shapeCasts_S32768_S32768x1 : S32768.ShapeCasts S32768x1
  broadcasts_S32768x1_S32768x8 : S32768x1.Broadcasts S32768x8
  slices_S32768x8_o0_0_S32768x1 : S32768x8.Slices ![0, 0] S32768x1
  shapeCasts_S32768x1_S32768 : S32768x1.ShapeCasts S32768
  slices_S32768x8_o0_4_S32768x1 : S32768x8.Slices ![0, 4] S32768x1
  slices_S32768x8_o0_1_S32768x1 : S32768x8.Slices ![0, 1] S32768x1
  slices_S32768x8_o0_2_S32768x1 : S32768x8.Slices ![0, 2] S32768x1
  slices_S32768x8_o0_6_S32768x1 : S32768x8.Slices ![0, 6] S32768x1
  slices_S32768x8_o0_5_S32768x1 : S32768x8.Slices ![0, 5] S32768x1
  slices_S32768x8_o0_7_S32768x1 : S32768x8.Slices ![0, 7] S32768x1
  inb_S32768_S32768_0 : ∀ a, (![0] : Fin 1 → Nat) a + S32768.size a ≤ S32768.size a
  h_S32768 : 0 < S32768.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768x8.size a ≤ S4194304x8.size a
  hwx0_0 : ∀ i : grid0.Coords, EltTy.bits .f32 = 32 ∨ (Rect.block (s := S4194304x8) S32768x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32768x8.size a ≤ S4194304x8.size a
  hwx0_1 : ∀ i : grid0.Coords, EltTy.bits .f32 = 32 ∨ (Rect.block (s := S4194304x8) S32768x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32768x8.size a ≤ S4194304x8.size a
  hwx0_2 : ∀ i : grid0.Coords, EltTy.bits .f32 = 32 ∨ (Rect.block (s := S4194304x8) S32768x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32768.size a ≤ S4194304.size a
  hwx0_3 : ∀ i : grid0.Coords, EltTy.bits .f32 = 32 ∨ (Rect.block (s := S4194304) S32768.size (cc0_transform_3 i) (hinb0_3 i)).WholeWords (EltTy.packing .f32)

variable [Facts₀]

abbrev win0_0 : Pipeline.Window sig grid0 :=
  Pipeline.Window.ofSpec (Memref.whole main_arg0) S32768x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32768x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32768x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4194304x8 : Shape := ⟨2, ![4194304, 8]⟩
abbrev S36 : Shape := ⟨1, ![36]⟩
abbrev S1x36 : Shape := ⟨2, ![1, 36]⟩
abbrev S_ : Shape := ⟨0, ![]⟩
abbrev S4194304 : Shape := ⟨1, ![4194304]⟩
abbrev S4194304x1 : Shape := ⟨2, ![4194304, 1]⟩
abbrev S36x1 : Shape := ⟨2, ![36, 1]⟩
abbrev S4194304x36 : Shape := ⟨2, ![4194304, 36]⟩

abbrev nBuf : Space → Nat
  | .hbm => 99
  | .vmem => 0
  | .smem => 0
  | _ => 0

abbrev bufTy : (tb : Table) → Fin (tcTables nBuf tb) → BufTy
  | .hbm, ⟨0, _⟩ => ⟨S4194304x8, .f32⟩
  | .hbm, ⟨1, _⟩ => ⟨S4194304x8, .f32⟩
  | .hbm, ⟨2, _⟩ => ⟨S4194304x8, .f32⟩
  | .hbm, ⟨3, _⟩ => ⟨S36, .i32⟩
  | .hbm, ⟨4, _⟩ => ⟨S36, .i1⟩
  | .hbm, ⟨5, _⟩ => ⟨S36, .i32⟩
  | .hbm, ⟨6, _⟩ => ⟨S36, .i1⟩
  | .hbm, ⟨7, _⟩ => ⟨S36, .i32⟩
  | .hbm, ⟨8, _⟩ => ⟨S36, .i1⟩
  | .hbm, ⟨9, _⟩ => ⟨S36, .i1⟩
  | .hbm, ⟨10, _⟩ => ⟨S36, .i1⟩
  | .hbm, ⟨11, _⟩ => ⟨S1x36, .i1⟩
  | .hbm, ⟨12, _⟩ => ⟨S_, .f32⟩
  | .hbm, ⟨13, _⟩ => ⟨S4194304, .f32⟩
  | .hbm, ⟨14, _⟩ => ⟨S_, .f32⟩
  | .hbm, ⟨15, _⟩ => ⟨S4194304, .f32⟩
  | .hbm, ⟨16, _⟩ => ⟨S4194304, .f32⟩
  | .hbm, ⟨17, _⟩ => ⟨S4194304x1, .f32⟩
  | .hbm, ⟨18, _⟩ => ⟨S4194304x8, .f32⟩
  | .hbm, ⟨19, _⟩ => ⟨S4194304x8, .f32⟩
  | .hbm, ⟨20, _⟩ => ⟨S4194304x8, .f32⟩
  | .hbm, ⟨21, _⟩ => ⟨S_, .f32⟩
  | .hbm, ⟨22, _⟩ => ⟨S4194304, .f32⟩
  | .hbm, ⟨23, _⟩ => ⟨S4194304x1, .f32⟩
  | .hbm, ⟨24, _⟩ => ⟨S4194304x1, .f32⟩
  | .hbm, ⟨25, _⟩ => ⟨S4194304x8, .f32⟩
  | .hbm, ⟨26, _⟩ => ⟨S4194304x8, .f32⟩
  | .hbm, ⟨27, _⟩ => ⟨S_, .f32⟩
  | .hbm, ⟨28, _⟩ => ⟨S4194304, .f32⟩
  | .hbm, ⟨29, _⟩ => ⟨S_, .f32⟩
  | .hbm, ⟨30, _⟩ => ⟨S4194304, .f32⟩
  | .hbm, ⟨31, _⟩ => ⟨S4194304, .f32⟩
  | .hbm, ⟨32, _⟩ => ⟨S4194304x1, .f32⟩
  | .hbm, ⟨33, _⟩ => ⟨S4194304x8, .f32⟩
  | .hbm, ⟨34, _⟩ => ⟨S4194304x8, .f32⟩
  | .hbm, ⟨35, _⟩ => ⟨S4194304x8, .f32⟩
  | .hbm, ⟨36, _⟩ => ⟨S_, .f32⟩
  | .hbm, ⟨37, _⟩ => ⟨S4194304, .f32⟩
  | .hbm, ⟨38, _⟩ => ⟨S4194304x1, .f32⟩
  | .hbm, ⟨39, _⟩ => ⟨S4194304x1, .f32⟩
  | .hbm, ⟨40, _⟩ => ⟨S4194304x8, .f32⟩
  | .hbm, ⟨41, _⟩ => ⟨S4194304x8, .f32⟩
  | .hbm, ⟨42, _⟩ => ⟨S_, .f32⟩
  | .hbm, ⟨43, _⟩ => ⟨S4194304, .f32⟩
  | .hbm, ⟨44, _⟩ => ⟨S_, .f32⟩
  | .hbm, ⟨45, _⟩ => ⟨S4194304, .f32⟩
  | .hbm, ⟨46, _⟩ => ⟨S4194304, .f32⟩
  | .hbm, ⟨47, _⟩ => ⟨S4194304x1, .f32⟩
  | .hbm, ⟨48, _⟩ => ⟨S4194304x8, .f32⟩
  | .hbm, ⟨49, _⟩ => ⟨S4194304x8, .f32⟩
  | .hbm, ⟨50, _⟩ => ⟨S4194304x8, .f32⟩
  | .hbm, ⟨51, _⟩ => ⟨S_, .f32⟩
  | .hbm, ⟨52, _⟩ => ⟨S4194304, .f32⟩
  | .hbm, ⟨53, _⟩ => ⟨S4194304x1, .f32⟩
  | .hbm, ⟨54, _⟩ => ⟨S4194304x1, .f32⟩
  | .hbm, ⟨55, _⟩ => ⟨S4194304x8, .f32⟩
  | .hbm, ⟨56, _⟩ => ⟨S4194304x8, .f32⟩
  | .hbm, ⟨57, _⟩ => ⟨S4194304x8, .f32⟩
  | .hbm, ⟨58, _⟩ => ⟨S_, .f32⟩
  | .hbm, ⟨59, _⟩ => ⟨S4194304x8, .f32⟩
  | .hbm, ⟨60, _⟩ => ⟨S4194304x8, .f32⟩
  | .hbm, ⟨61, _⟩ => ⟨S_, .f32⟩
  | .hbm, ⟨62, _⟩ => ⟨S_, .f32⟩
  | .hbm, ⟨63, _⟩ => ⟨S4194304x8, .f32⟩
  | .hbm, ⟨64, _⟩ => ⟨S4194304x8, .f32⟩
  | .hbm, ⟨65, _⟩ => ⟨S4194304x8, .f32⟩
  | .hbm, ⟨66, _⟩ => ⟨S_, .i32⟩
  | .hbm, ⟨67, _⟩ => ⟨S36, .i32⟩
  | .hbm, ⟨68, _⟩ => ⟨S36, .i32⟩
  | .hbm, ⟨69, _⟩ => ⟨S36, .i32⟩
  | .hbm, ⟨70, _⟩ => ⟨S36x1, .i32⟩
  | .hbm, ⟨71, _⟩ => ⟨S4194304x36, .f32⟩
  | .hbm, ⟨72, _⟩ => ⟨S_, .i32⟩
  | .hbm, ⟨73, _⟩ => ⟨S36, .i32⟩
  | .hbm, ⟨74, _⟩ => ⟨S36, .i32⟩
  | .hbm, ⟨75, _⟩ => ⟨S36, .i32⟩
  | .hbm, ⟨76, _⟩ => ⟨S36x1, .i32⟩
  | .hbm, ⟨77, _⟩ => ⟨S4194304x36, .f32⟩
  | .hbm, ⟨78, _⟩ => ⟨S_, .i32⟩
  | .hbm, ⟨79, _⟩ => ⟨S36, .i32⟩
  | .hbm, ⟨80, _⟩ => ⟨S36, .i32⟩
  | .hbm, ⟨81, _⟩ => ⟨S36, .i32⟩
  | .hbm, ⟨82, _⟩ => ⟨S36x1, .i32⟩
  | .hbm, ⟨83, _⟩ => ⟨S4194304x36, .f32⟩
  | .hbm, ⟨84, _⟩ => ⟨S_, .i32⟩
  | .hbm, ⟨85, _⟩ => ⟨S36, .i32⟩
  | .hbm, ⟨86, _⟩ => ⟨S36, .i32⟩
  | .hbm, ⟨87, _⟩ => ⟨S36, .i32⟩
  | .hbm, ⟨88, _⟩ => ⟨S36x1, .i32⟩
  | .hbm, ⟨89, _⟩ => ⟨S4194304x36, .f32⟩
  | .hbm, ⟨90, _⟩ => ⟨S4194304x36, .i1⟩
  | .hbm, ⟨91, _⟩ => ⟨S4194304x36, .f32⟩
  | .hbm, ⟨92, _⟩ => ⟨S4194304x36, .f32⟩
  | .hbm, ⟨93, _⟩ => ⟨S4194304x36, .f32⟩
  | .hbm, ⟨94, _⟩ => ⟨S_, .f32⟩
  | .hbm, ⟨95, _⟩ => ⟨S4194304x36, .f32⟩
  | .hbm, ⟨96, _⟩ => ⟨S4194304x36, .f32⟩
  | .hbm, ⟨97, _⟩ => ⟨S_, .f32⟩
  | .hbm, ⟨98, _⟩ => ⟨S4194304, .f32⟩
  | _, _ => ⟨S4194304x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_v0 : Ref sig .tc := ⟨.hbm, 11, rfl⟩
abbrev main_call0_cst : Ref sig .tc := ⟨.hbm, 12, rfl⟩
abbrev main_call0_v0 : Ref sig .tc := ⟨.hbm, 13, rfl⟩
abbrev main_call0_cst_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst_1 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_v1 : Ref sig .tc := ⟨.hbm, 26, rfl⟩
abbrev main_call1_cst : Ref sig .tc := ⟨.hbm, 27, rfl⟩
abbrev main_call1_v0 : Ref sig .tc := ⟨.hbm, 28, rfl⟩
abbrev main_call1_cst_0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_cst_1 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_v2 : Ref sig .tc := ⟨.hbm, 41, rfl⟩
abbrev main_call2_cst : Ref sig .tc := ⟨.hbm, 42, rfl⟩
abbrev main_call2_v0 : Ref sig .tc := ⟨.hbm, 43, rfl⟩
abbrev main_call2_cst_0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_v6 : Ref sig .tc := ⟨.hbm, 50, rfl⟩
abbrev main_call2_cst_1 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_v3 : Ref sig .tc := ⟨.hbm, 56, rfl⟩
abbrev main_v4 : Ref sig .tc := ⟨.hbm, 57, rfl⟩
abbrev main_cst : Ref sig .tc := ⟨.hbm, 58, rfl⟩
abbrev main_v5 : Ref sig .tc := ⟨.hbm, 59, rfl⟩
abbrev main_v6 : Ref sig .tc := ⟨.hbm, 60, rfl⟩
abbrev main_cst_7 : Ref sig .tc := ⟨.hbm, 61, rfl⟩
abbrev main_call3_v0 : Ref sig .tc := ⟨.hbm, 62, rfl⟩
abbrev main_call3_v1 : Ref sig .tc := ⟨.hbm, 63, rfl⟩
abbrev main_v7 : Ref sig .tc := ⟨.hbm, 64, rfl⟩
abbrev main_v8 : Ref sig .tc := ⟨.hbm, 65, rfl⟩
abbrev main_c_8 : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_c_9 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_c_10 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_c_11 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_call4_v0 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_call5_cst : Ref sig .tc := ⟨.hbm, 94, rfl⟩
abbrev main_call5_v0 : Ref sig .tc := ⟨.hbm, 95, rfl⟩
abbrev main_v32 : Ref sig .tc := ⟨.hbm, 96, rfl⟩
abbrev main_cst_12 : Ref sig .tc := ⟨.hbm, 97, rfl⟩
abbrev main_v33 : Ref sig .tc := ⟨.hbm, 98, rfl⟩

abbrev nD : Nat := 1
abbrev τ : Topo := Topo.v7x

variable {F : FTy → Type} [FloatOps F]

class Facts₀ : Prop where
  bcast_S36_S1x36_1 : S36.BroadcastsInDim S1x36 (![1] : Fin 1 → Fin S1x36.rank)
  reducesTo_S4194304x8_S4194304_d1 : S4194304x8.ReducesTo [1] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S4194304x1_S4194304x8_0_1 : S4194304x1.BroadcastsInDim S4194304x8 (![0, 1] : Fin 2 → Fin S4194304x8.rank)
  bcast_S_S4194304x8 : S_.BroadcastsInDim S4194304x8 (![] : Fin 0 → Fin S4194304x8.rank)
  bcast_S_S36 : S_.BroadcastsInDim S36 (![] : Fin 0 → Fin S36.rank)
  bcast_S36_S36x1_0 : S36.BroadcastsInDim S36x1 (![0] : Fin 1 → Fin S36x1.rank)
  bcast_S1x36_S4194304x36_0_1 : S1x36.BroadcastsInDim S4194304x36 (![0, 1] : Fin 2 → Fin S4194304x36.rank)
  bcast_S_S4194304x36 : S_.BroadcastsInDim S4194304x36 (![] : Fin 0 → Fin S4194304x36.rank)
  reducesTo_S4194304x36_S4194304_d1 : S4194304x36.ReducesTo [1] S4194304
  gather_S4194304x8_S36x1_S4194304x36_0_1_n_n_1_1_41943041_wf : GatherDims.WF S4194304x8 S36x1 S4194304x36 [0] [1] [] [1] [] 1 ![4194304, 1]

variable [Facts₀]

def gather_S4194304x8_S36x1_S4194304x36_0_1_n_n_1_1_41943041 : GatherDims S4194304x8 S36x1 S4194304x36 where
  offsetDims := [0]
  collapsedSliceDims := [1]
  operandBatchingDims := []
  startIndicesBatchingDims := []
  startIndexMap := [1]
  indexVectorDim := 1
  sliceSizes := ![4194304, 1]
  wf := gather_S4194304x8_S36x1_S4194304x36_0_1_n_n_1_1_41943041_wf

class Facts : Prop extends Facts₀ where

variable [Facts]
-- ==== Proof.Spec.lean ====
/-
  The row-local specification of the constraint loss, on the extended reals.

  For one row of eight logits `x`, `lsm x j` is the log-softmax written with the shifted maximum:
  `(x j - M) - log (∑ k, exp (x k - M))`, `M` the maximum of the row taken from `-∞`.  For the third input the
  clamped complement `lnot g j = log (max (1 - exp (lsm g j)) ε)`.  A constraint `(ai, bi, gi, n)` contributes
  `max ((lsm a ai + lsm b bi) - c) 0` with `c` the complement's entry when `n` holds and the log-softmax's
  otherwise, and a row's result is `0` plus the sum of the thirty-six contributions listed by the four tables.
  The float words `-∞`, `0`, `1`, `ε` stay as the bit patterns both programs print: they are never evaluated.
  `chain36_eq_sum` is the one law the two programs differ by in the last step: adding the thirty-six terms one
  after the other onto a start value is that value plus their sum (associativity of `+`, which holds on every
  extended real, the infinities included).
-/
import Idealize.ShloMosaic.PureOps.Ideal
import Idealize.ShloMosaic.Lib.ValueIdx

noncomputable section

namespace Cert.Spec

open Idealize.ShloMosaic

/-- A row of eight logits. -/
abbrev Row := Fin 8 → EReal

/-- The four float words of the computation, as the extended reals they denote. -/
abbrev negInf : EReal := Ideal.ofBits .f32 0xFF800000#32
abbrev zero : EReal := Ideal.ofBits .f32 0x00000000#32
abbrev one : EReal := Ideal.ofBits .f32 0x3F800000#32
abbrev eps : EReal := Ideal.ofBits .f32 0x322BCC77#32

/-- The row's maximum, folded from `-∞`. -/
def rmax (x : Row) : EReal := (Finset.univ : Finset (Fin 8)).fold max negInf x

/-- The row shifted by its maximum. -/
def shift (x : Row) (j : Fin 8) : EReal := x j - rmax x

/-- The logarithm of the sum of the shifted row's exponentials. -/
def lse (x : Row) : EReal := Ideal.log (∑ k : Fin 8, Ideal.exp (shift x k))

/-- The log-softmax of the row at lane `j`. -/
def lsm (x : Row) (j : Fin 8) : EReal := shift x j - lse x

/-- `log (1 - softmax)`, the difference clamped below at `ε`. -/
def lnot (g : Row) (j : Fin 8) : EReal := Ideal.log (max (one - Ideal.exp (lsm g j)) eps)

/-- One constraint's contribution from the three log-softmax rows `la`, `lb`, `lg` and the complement row `ln`. -/
def termOf (la lb lg ln : Row) (ai bi gi : Fin 8) (n : Bool) : EReal :=
  max ((la ai + lb bi) - (bif n then ln gi else lg gi)) zero

/-- One constraint's contribution from the three rows of logits. -/
def term (a b g : Row) : Fin 8 → Fin 8 → Fin 8 → Bool → EReal := termOf (lsm a) (lsm b) (lsm g) (lnot g)

/-- The thirty-six constraints: the lane of the first input, of the second, of the third, and whether the third
    enters through its complement. -/
def tabA : Fin 36 → Fin 8 := ![0, 0, 0, 0, 0, 0, 1, 1, 1, 1, 1, 1, 2, 2, 2, 2, 2, 2, 2, 2, 2, 4, 4, 4, 4, 4, 4, 5, 5, 5, 5, 5, 5, 6, 7, 7]
def tabB : Fin 36 → Fin 8 := ![4, 4, 4, 6, 6, 6, 5, 5, 5, 6, 6, 6, 4, 4, 4, 5, 5, 5, 6, 7, 7, 0, 0, 0, 2, 2, 2, 1, 1, 1, 2, 2, 2, 2, 2, 2]
def tabG : Fin 36 → Fin 8 := ![4, 1, 2, 4, 1, 2, 5, 0, 2, 5, 0, 2, 4, 1, 2, 5, 0, 2, 6, 7, 2, 4, 1, 2, 4, 1, 2, 5, 0, 2, 5, 0, 2, 6, 7, 2]
def tabN : Fin 36 → Bool := ![false, true, true, false, true, true, false, true, true, false, true, true, false, true, true, false, true, true, false, false, true, false, true, true, false, true, true, false, true, true, false, true, true, false, false, true]

/-- The thirty-six contributions added one after the other onto `z`, in the order both programs list them. -/
def chain36 (z : EReal) (T : Fin 8 → Fin 8 → Fin 8 → Bool → EReal) : EReal :=
  ((((((((((((((((((((((((((((((((((((z + T 0 4 4 false) + T 0 4 1 true) + T 0 4 2 true) + T 0 6 4 false) + T 0 6 1 true) + T 0 6 2 true) + T 1 5 5 false) + T 1 5 0 true) + T 1 5 2 true) + T 1 6 5 false) + T 1 6 0 true) + T 1 6 2 true) + T 2 4 4 false) + T 2 4 1 true) + T 2 4 2 true) + T 2 5 5 false) + T 2 5 0 true) + T 2 5 2 true) + T 2 6 6 false) + T 2 7 7 false) + T 2 7 2 true) + T 4 0 4 false) + T 4 0 1 true) + T 4 0 2 true) + T 4 2 4 false) + T 4 2 1 true) + T 4 2 2 true) + T 5 1 5 false) + T 5 1 0 true) + T 5 1 2 true) + T 5 2 5 false) + T 5 2 0 true) + T 5 2 2 true) + T 6 2 6 false) + T 7 2 7 false) + T 7 2 2 true)

/-- Added one after the other onto `z`, the thirty-six contributions give `z` plus their sum over the tables. -/
theorem chain36_eq_sum (z : EReal) (T : Fin 8 → Fin 8 → Fin 8 → Bool → EReal) :
    chain36 z T = z + ∑ t : Fin 36, T (tabA t) (tabB t) (tabG t) (tabN t) := by
  unfold chain36
  simp only [Fin.sum_univ_succ, Fin.sum_univ_zero, tabA, tabB, tabG, tabN, Matrix.cons_val_succ, Matrix.cons_val_zero,
    add_assoc, add_zero]

/-- A row's result: `0` plus the thirty-six contributions. -/
def rowResult (a b g : Row) : EReal := zero + ∑ t : Fin 36, term a b g (tabA t) (tabB t) (tabG t) (tabN t)

/-- A row's result as the chain of its contributions. -/
theorem rowResult_eq_chain (a b g : Row) : rowResult a b g = chain36 zero (term a b g) :=
  (chain36_eq_sum zero (term a b g)).symm

end Cert.Spec

end
-- ==== Proof.KernelArray.lean ====
/-
  From the blocks to the array, for the kernel at the ideal values.

  The pipeline cuts each `[4194304, 8]` input into 128 blocks of 32768 rows and the `[4194304]` output into 128
  blocks of 32768 entries; point `t` of the grid reads block `t` of each input and writes block `t` of the output.
  Row `r` of block `t` is row `t * 32768 + r` of the array (`blk_read0/1/2`), so if the body's result at a block
  row is the row-local specification of the three input rows (`hrow`), what point `t` writes back is block `t` of
  ONE function `G` of the whole argument arrays (`flushed_eq`).  Every index lies in the block of the point
  `i / 32768` (`cover`), hence the output array ends holding `G` (`final`), and the kernel's run ends with its
  result at `G` of the arguments and the arguments unchanged (`run`).
-/
import proofs.«101639_j25400436588776_1_alg».proof.Proof.KernelIdealFrame
import proofs.«101639_j25400436588776_1_alg».proof.Proof.Spec
import Idealize.ShloMosaic.Lib.Pipeline.Value
import Idealize.ShloMosaic.Lib.ValueIdx

noncomputable section

namespace Cert.KernelIdeal.ArrayValue

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

/-- Row `n` of a `[4194304, 8]` array. -/
def rowAt (A : S4194304x8.Idx → EReal) (n : ℕ) (hn : n < 4194304) : Cert.Spec.Row := fun j => A (ix2 ⟨n, hn⟩ j)

/-- The result array as one function of the three argument arrays: entry `i` is the specification of their rows `i`. -/
def G (a b g : S4194304x8.Idx → EReal) : S4194304.Idx → EReal :=
  fun i => Cert.Spec.rowResult (rowAt a (i 0).val (i 0).isLt) (rowAt b (i 0).val (i 0).isLt) (rowAt g (i 0).val (i 0).isLt)

/-- What the body's result is asked to be at a block row: the specification of the three block rows. -/
def RowSpec : Prop :=
  ∀ (X0 X1 X2 : Vec Ideal S32768x8 .f32) (r : Fin 32768),
    out0_3 (F := Ideal) X0 X1 X2 (ix1 r)
      = Cert.Spec.rowResult (fun j => X0 (ix2 r j)) (fun j => X1 (ix2 r j)) (fun j => X2 (ix2 r j))

variable (m : (ℓ : Loc nD τ sig) → Buf (Elt Ideal) ℓ) (ρ : Dev nD → PrngReg)

/-- The printed index maps, decided over the 128 points: every window is at block `t` along the rows, and the
    inputs at block `0` along the lanes. -/
theorem idx_facts : ∀ t : Fin cfg0.N, win0_3.index t (0 : Fin 1) = t.val
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `r` of input block `t` is row `t * 32768 + r` of the first argument array. -/
theorem blk_read0 (c : Dev nD) (t : Fin cfg0.N) (r : Fin 32768) (j : Fin 8) (n : ℕ) (hn : n < 4194304)
    (e : n = t.val * 32768 + r.val) : iblk m c 0 t (ix2 r j) = V m c main_arg0 (ix2 ⟨n, hn⟩ j) := by
  obtain ⟨-, e0, e1, -⟩ := idx_facts t
  show V m c main_arg0 (((cfg0.win 0).blk t).view.emb (ix2 r j)) = V m c main_arg0 (ix2 ⟨n, hn⟩ j)
  refine congrArg (V m c main_arg0) ?_
  funext a; apply Fin.ext
  match a with
  | ⟨0, _⟩ => show win0_0.index t (0 : Fin 2) * 32768 + 1 * r.val = n; omega
  | ⟨1, _⟩ => show win0_0.index t (1 : Fin 2) * 8 + 1 * j.val = j.val; omega

/-- The same for the second argument array. -/
theorem blk_read1 (c : Dev nD) (t : Fin cfg0.N) (r : Fin 32768) (j : Fin 8) (n : ℕ) (hn : n < 4194304)
    (e : n = t.val * 32768 + r.val) : iblk m c 1 t (ix2 r j) = V m c main_arg1 (ix2 ⟨n, hn⟩ j) := by
  obtain ⟨-, -, -, e0, e1, -⟩ := idx_facts t
  show V m c main_arg1 (((cfg0.win 1).blk t).view.emb (ix2 r j)) = V m c main_arg1 (ix2 ⟨n, hn⟩ j)
  refine congrArg (V m c main_arg1) ?_
  funext a; apply Fin.ext
  match a with
  | ⟨0, _⟩ => show win0_1.index t (0 : Fin 2) * 32768 + 1 * r.val = n; omega
  | ⟨1, _⟩ => show win0_1.index t (1 : Fin 2) * 8 + 1 * j.val = j.val; omega

/-- The same for the third argument array. -/
theorem blk_read2 (c : Dev nD) (t : Fin cfg0.N) (r : Fin 32768) (j : Fin 8) (n : ℕ) (hn : n < 4194304)
    (e : n = t.val * 32768 + r.val) : iblk m c 2 t (ix2 r j) = V m c main_arg2 (ix2 ⟨n, hn⟩ j) := by
  obtain ⟨-, -, -, -, -, e0, e1⟩ := idx_facts t
  show V m c main_arg2 (((cfg0.win 2).blk t).view.emb (ix2 r j)) = V m c main_arg2 (ix2 ⟨n, hn⟩ j)
  refine congrArg (V m c main_arg2) ?_
  funext a; apply Fin.ext
  match a with
  | ⟨0, _⟩ => show win0_2.index t (0 : Fin 2) * 32768 + 1 * r.val = n; omega
  | ⟨1, _⟩ => show win0_2.index t (1 : Fin 2) * 8 + 1 * j.val = j.val; omega

/-- WHAT POINT `t` WRITES BACK is block `t` of `G` of the argument arrays as the region finds them. -/
theorem flushed_eq (hrow : RowSpec) (c : Dev nD) (t : Fin cfg0.N) :
    (dats m 0 c).flushed 3 t
      = ((cfg0.win 3).blk t).view.read (Elt Ideal) (G (V m c main_arg0) (V m c main_arg1) (V m c main_arg2)) := by
  show (cfg0.win 3).cut (grid0.coords t) ((dats m 0 c).after 3 t) = _
  rw [after0_3]
  obtain ⟨e3, -⟩ := idx_facts t
  have hN : t.val < 128 := by have h := t.isLt; have e : cfg0.N = 128 := N_0; omega
  funext y
  have hy : (y 0).val < 32768 := (y 0).isLt
  have hn : t.val * 32768 + (y 0).val < 4194304 := by omega
  have hemb : ((((cfg0.win 3).blk t).view.emb y) 0).val = t.val * 32768 + (y 0).val := by
    show win0_3.index t (0 : Fin 1) * 32768 + 1 * (y 0).val = _
    omega
  have hx : (cfg0.win 3).xinj (grid0.coords t) y = ix1 ⟨(y 0).val, hy⟩ := by
    funext a; apply Fin.ext
    match a with
    | ⟨0, _⟩ => rfl
  show out0_3 (iblk m c 0 t) (iblk m c 1 t) (iblk m c 2 t) ((cfg0.win 3).xinj (grid0.coords t) y)
    = G (V m c main_arg0) (V m c main_arg1) (V m c main_arg2) (((cfg0.win 3).blk t).view.emb y)
  rw [hx]
  refine (hrow (iblk m c 0 t) (iblk m c 1 t) (iblk m c 2 t) ⟨(y 0).val, hy⟩).trans ?_
  unfold G
  have r0 : (fun j => iblk m c 0 t (ix2 ⟨(y 0).val, hy⟩ j))
      = rowAt (V m c main_arg0) ((((cfg0.win 3).blk t).view.emb y) 0).val ((((cfg0.win 3).blk t).view.emb y) 0).isLt :=
    funext fun j => blk_read0 m c t ⟨(y 0).val, hy⟩ j _ _ hemb
  have r1 : (fun j => iblk m c 1 t (ix2 ⟨(y 0).val, hy⟩ j))
      = rowAt (V m c main_arg1) ((((cfg0.win 3).blk t).view.emb y) 0).val ((((cfg0.win 3).blk t).view.emb y) 0).isLt :=
    funext fun j => blk_read1 m c t ⟨(y 0).val, hy⟩ j _ _ hemb
  have r2 : (fun j => iblk m c 2 t (ix2 ⟨(y 0).val, hy⟩ j))
      = rowAt (V m c main_arg2) ((((cfg0.win 3).blk t).view.emb y) 0).val ((((cfg0.win 3).blk t).view.emb y) 0).isLt :=
    funext fun j => blk_read2 m c t ⟨(y 0).val, hy⟩ j _ _ hemb
  rw [r0, r1, r2]

/-- An index of the output array is in point `t`'s block iff it lies in the block's range. -/
theorem mem_blk (t : Fin cfg0.N) (i : S4194304.Idx) :
    i ∈ ((cfg0.win 3).blk t).view.set
      ↔ ∀ a : Fin 1, win0_3.index t a * S32768.size a ≤ (i a).val ∧ (i a).val < win0_3.index t a * S32768.size a + S32768.size a := by
  show i ∈ ((View.whole main_v0).slice (win0_3.rect t)).set ↔ _
  rw [View.set_slice_whole, Rect.mem_set_unit]
  exact Iff.rfl

/-- Every index of the output array is in the block of the point `i / 32768`, which writes back. -/
theorem cover (i : S4194304.Idx) :
    ∃ t : Fin cfg0.N, (cfg0.win 3).flush t = true ∧ i ∈ ((cfg0.win 3).blk t).view.set := by
  have hi : (i 0).val < 4194304 := (i 0).isLt
  have hN : cfg0.N = 128 := N_0
  have ht : (i 0).val / 32768 < cfg0.N := by rw [hN]; omega
  refine ⟨⟨(i 0).val / 32768, ht⟩, flush0_3 _, ?_⟩
  obtain ⟨e3, -⟩ := idx_facts ⟨(i 0).val / 32768, ht⟩
  rw [mem_blk]
  intro a
  match a with
  | ⟨0, _⟩ =>
    show win0_3.index ⟨(i 0).val / 32768, ht⟩ (0 : Fin 1) * 32768 ≤ (i 0).val
      ∧ (i 0).val < win0_3.index ⟨(i 0).val / 32768, ht⟩ (0 : Fin 1) * 32768 + 32768
    have e3' : win0_3.index ⟨(i 0).val / 32768, ht⟩ (0 : Fin 1) = (i 0).val / 32768 := e3
    omega

/-- THE OUTPUT ARRAY after the run is `G` of the argument arrays. -/
theorem final (hrow : RowSpec) (c : Dev nD) :
    (dats m 0 c).arrAt 3 cfg0.N = G (V m c main_arg0) (V m c main_arg1) (V m c main_arg2) :=
  (dats m 0 c).arrAt_eq_of_cover 3 _ (fun t _ => flushed_eq m hrow c t) cover

/-- The kernel's run: its result ends at `G` of the arguments, the arguments unchanged. -/
theorem run (hrow : RowSpec) : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m hrow c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.ArrayValue

end
-- ==== Proof.KernelChain.lean ====
/-
  The kernel's accumulated value read at one row, over its four log-softmax arrays kept opaque.

  The kernel cuts single lanes out of the three log-softmax arrays and out of the clamped complement of the third
  (a `[32768, 1]` slice cast to a vector), forms `max ((la + lb) - c) 0` lane by lane, and adds the thirty-six
  terms one after the other onto a zero vector, five at a time.  Read at row `r`, a lane column is the array's
  entry `(r, lane)`, the pointwise operations are the extended reals', and so the accumulated value at `r` is the
  literal left-nested chain of the thirty-six contributions, in the order the specification lists them.  The four
  arrays stay variables throughout: nothing here looks inside a log-softmax.
-/
import proofs.«101639_j25400436588776_1_alg».proof.Proof.Gen.KernelIdeal.Skeleton
import proofs.«101639_j25400436588776_1_alg».proof.Proof.Spec
import Idealize.ShloMosaic.Lib.ValueIdx
import Idealize.ShloMosaic.Lib.ValueLayout
import Idealize.ShloMosaic.Lib.Pipeline.Value

noncomputable section

namespace Cert.KernelIdeal.Chain

open Cert.KernelIdeal Cert.KernelIdeal.Gen Idealize.ShloMosaic Idealize.ShloMosaic.ValueIdx

section Def
variable {F : FTy → Type} [FloatOps F]

/-- The value the kernel stores for a block, as a function of the three blocks it loads. -/
def kernelPay (v0 v1 v2 : Vec F S32768x8 .f32) : FVec F S32768 .f32 :=
  k0_pay1 (k0_pay5 v2) (k0_pay27 (k0_pay2 v0) (k0_pay3 v1) (k0_pay4 v2) (k0_pay5 v2) (k0_pay24 (k0_pay2 v0) (k0_pay3 v1) (k0_pay4 v2) (k0_pay5 v2) (k0_pay21 (k0_pay2 v0) (k0_pay3 v1) (k0_pay4 v2) (k0_pay5 v2) (k0_pay18 (k0_pay2 v0) (k0_pay3 v1) (k0_pay4 v2) (k0_pay5 v2) (k0_pay15 (k0_pay2 v0) (k0_pay3 v1) (k0_pay4 v2) (k0_pay5 v2) (k0_pay12 (k0_pay2 v0) (k0_pay3 v1) (k0_pay4 v2) (k0_pay5 v2) (k0_pay9 (k0_pay2 v0) (k0_pay3 v1) (k0_pay4 v2) (k0_pay5 v2) (k0_pay6 (F := F)) (k0_pay7 v0) (k0_pay8 v1)) (k0_pay10 (k0_pay2 v0)) (k0_pay11 (k0_pay3 v1))) (k0_pay13 (k0_pay2 v0)) (k0_pay14 (k0_pay3 v1))) (k0_pay16 (k0_pay2 v0)) (k0_pay17 (k0_pay3 v1))) (k0_pay19 (k0_pay2 v0)) (k0_pay20 (k0_pay3 v1))) (k0_pay22 (k0_pay2 v0)) (k0_pay23 (k0_pay3 v1))) (k0_pay25 (k0_pay2 v0)) (k0_pay26 (k0_pay3 v1))) (k0_pay28 (k0_pay2 v0)) (k0_pay29 (k0_pay3 v1))

end Def

/-! ## A lane column read at a row -/

/-- An `[a, 1]` array cast to `[a]` reads, at `i`, the operand at `(i, 0)`: the two indices have the same
    row-major position, `i * 1 + 0 = i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Lane `o` of a `[32768, 8]` array, cut out as a `[32768, 1]` slice and cast to a vector, reads at row `r` the
    array at `(r, o)`: the cast reads the slice at `(r, 0)`, and the slice reads the array `o` lanes along. -/
theorem col_apply {α : Type} (o : ℕ) (v : (⟨2, ![32768, 8]⟩ : Shape).Idx → α)
    (hs : (⟨2, ![32768, 8]⟩ : Shape).Slices ![0, o] ⟨2, ![32768, 1]⟩)
    (hc : (⟨2, ![32768, 1]⟩ : Shape).ShapeCasts ⟨1, ![32768]⟩) (r : Fin 32768) (j : Fin 8) (hj : j.val = o) :
    shapeCast ⟨1, ![32768]⟩ (extractStridedSlice ⟨2, ![32768, 1]⟩ ![0, o] v hs) hc (ix1 r) = v (ix2 r j) :=
  (shapeCast_a1_a_apply _ hc r).trans
    (slice2_axis1_apply o v hs r (0 : Fin 1) j (by rw [hj]; rfl))

section Columns
variable {α : Type} (v : S32768x8.Idx → α) (hc : S32768x1.ShapeCasts S32768) (r : Fin 32768)

/-- The seven lanes the kernel cuts, each with the lane number a literal of `Fin 8`. -/
theorem col0 (hs : S32768x8.Slices ![0, 0] S32768x1) :
    shapeCast S32768 (extractStridedSlice S32768x1 ![0, 0] v hs) hc (ix1 r) = v (ix2 r (0 : Fin 8)) :=
  col_apply 0 v hs hc r 0 rfl
theorem col1 (hs : S32768x8.Slices ![0, 1] S32768x1) :
    shapeCast S32768 (extractStridedSlice S32768x1 ![0, 1] v hs) hc (ix1 r) = v (ix2 r (1 : Fin 8)) :=
  col_apply 1 v hs hc r 1 rfl
theorem col2 (hs : S32768x8.Slices ![0, 2] S32768x1) :
    shapeCast S32768 (extractStridedSlice S32768x1 ![0, 2] v hs) hc (ix1 r) = v (ix2 r (2 : Fin 8)) :=
  col_apply 2 v hs hc r 2 rfl
theorem col4 (hs : S32768x8.Slices ![0, 4] S32768x1) :
    shapeCast S32768 (extractStridedSlice S32768x1 ![0, 4] v hs) hc (ix1 r) = v (ix2 r (4 : Fin 8)) :=
  col_apply 4 v hs hc r 4 rfl
theorem col5 (hs : S32768x8.Slices ![0, 5] S32768x1) :
    shapeCast S32768 (extractStridedSlice S32768x1 ![0, 5] v hs) hc (ix1 r) = v (ix2 r (5 : Fin 8)) :=
  col_apply 5 v hs hc r 5 rfl
theorem col6 (hs : S32768x8.Slices ![0, 6] S32768x1) :
    shapeCast S32768 (extractStridedSlice S32768x1 ![0, 6] v hs) hc (ix1 r) = v (ix2 r (6 : Fin 8)) :=
  col_apply 6 v hs hc r 6 rfl
theorem col7 (hs : S32768x8.Slices ![0, 7] S32768x1) :
    shapeCast S32768 (extractStridedSlice S32768x1 ![0, 7] v hs) hc (ix1 r) = v (ix2 r (7 : Fin 8)) :=
  col_apply 7 v hs hc r 7 rfl

end Columns

/-! ## The payloads read at a row -/

section Parts
variable (v12 v22 v32 v38 : FVec Ideal S32768x8 .f32) (acc c1 c2 : FVec Ideal S32768 .f32) (r : Fin 32768)

/-- Row `r`'s contribution of the constraint `(ai, bi, gi, n)`, the four arrays read along that row. -/
abbrev rowTerm : Fin 8 → Fin 8 → Fin 8 → Bool → EReal :=
  Spec.termOf (fun j => v12 (ix2 r j)) (fun j => v22 (ix2 r j)) (fun j => v32 (ix2 r j)) (fun j => v38 (ix2 r j))

/-- The accumulator starts as the zero vector. -/
theorem pay6_apply : k0_pay6 (F := Ideal) (ix1 r) = Spec.zero := rfl

/-! The single lane columns handed from one group of five terms to the next. -/

theorem pay7_apply (v0 : Vec Ideal S32768x8 .f32) : k0_pay7 v0 (ix1 r) = k0_pay2 v0 (ix2 r (0 : Fin 8)) := by
  unfold k0_pay7; exact col0 _ _ r _
theorem pay8_apply (v1 : Vec Ideal S32768x8 .f32) : k0_pay8 v1 (ix1 r) = k0_pay3 v1 (ix2 r (4 : Fin 8)) := by
  unfold k0_pay8; exact col4 _ _ r _
theorem pay10_apply : k0_pay10 v12 (ix1 r) = v12 (ix2 r (0 : Fin 8)) := by
  unfold k0_pay10; exact col0 _ _ r _
theorem pay11_apply : k0_pay11 v22 (ix1 r) = v22 (ix2 r (6 : Fin 8)) := by
  unfold k0_pay11; exact col6 _ _ r _
theorem pay13_apply : k0_pay13 v12 (ix1 r) = v12 (ix2 r (1 : Fin 8)) := by
  unfold k0_pay13; exact col1 _ _ r _
theorem pay14_apply : k0_pay14 v22 (ix1 r) = v22 (ix2 r (6 : Fin 8)) := by
  unfold k0_pay14; exact col6 _ _ r _
theorem pay16_apply : k0_pay16 v12 (ix1 r) = v12 (ix2 r (2 : Fin 8)) := by
  unfold k0_pay16; exact col2 _ _ r _
theorem pay17_apply : k0_pay17 v22 (ix1 r) = v22 (ix2 r (5 : Fin 8)) := by
  unfold k0_pay17; exact col5 _ _ r _
theorem pay19_apply : k0_pay19 v12 (ix1 r) = v12 (ix2 r (2 : Fin 8)) := by
  unfold k0_pay19; exact col2 _ _ r _
theorem pay20_apply : k0_pay20 v22 (ix1 r) = v22 (ix2 r (7 : Fin 8)) := by
  unfold k0_pay20; exact col7 _ _ r _
theorem pay22_apply : k0_pay22 v12 (ix1 r) = v12 (ix2 r (4 : Fin 8)) := by
  unfold k0_pay22; exact col4 _ _ r _
theorem pay23_apply : k0_pay23 v22 (ix1 r) = v22 (ix2 r (2 : Fin 8)) := by
  unfold k0_pay23; exact col2 _ _ r _
theorem pay25_apply : k0_pay25 v12 (ix1 r) = v12 (ix2 r (5 : Fin 8)) := by
  unfold k0_pay25; exact col5 _ _ r _
theorem pay26_apply : k0_pay26 v22 (ix1 r) = v22 (ix2 r (2 : Fin 8)) := by
  unfold k0_pay26; exact col2 _ _ r _
theorem pay28_apply : k0_pay28 v12 (ix1 r) = v12 (ix2 r (7 : Fin 8)) := by
  unfold k0_pay28; exact col7 _ _ r _
theorem pay29_apply : k0_pay29 v22 (ix1 r) = v22 (ix2 r (2 : Fin 8)) := by
  unfold k0_pay29; exact col2 _ _ r _

/-! Each group adds five terms onto the accumulator it is handed: the first from the two columns handed in with it,
    the other four from lanes it cuts itself.  Every step is a pointwise operation read at the row, and every lane
    column is an entry of its array. -/

theorem pay9_apply : k0_pay9 v12 v22 v32 v38 acc c1 c2 (ix1 r)
    = ((((acc (ix1 r) + max ((c1 (ix1 r) + c2 (ix1 r)) - v32 (ix2 r (4 : Fin 8))) Spec.zero)
        + rowTerm v12 v22 v32 v38 r 0 4 1 true) + rowTerm v12 v22 v32 v38 r 0 4 2 true)
        + rowTerm v12 v22 v32 v38 r 0 6 4 false) + rowTerm v12 v22 v32 v38 r 0 6 1 true := by
  unfold k0_pay9
  simp only [addf_apply, subf_apply, maximumf_apply, broadcast_apply, col0, col1, col2, col4, col5, col6, col7]
  rfl

theorem pay12_apply : k0_pay12 v12 v22 v32 v38 acc c1 c2 (ix1 r)
    = ((((acc (ix1 r) + max ((c1 (ix1 r) + c2 (ix1 r)) - v38 (ix2 r (2 : Fin 8))) Spec.zero)
        + rowTerm v12 v22 v32 v38 r 1 5 5 false) + rowTerm v12 v22 v32 v38 r 1 5 0 true)
        + rowTerm v12 v22 v32 v38 r 1 5 2 true) + rowTerm v12 v22 v32 v38 r 1 6 5 false := by
  unfold k0_pay12
  simp only [addf_apply, subf_apply, maximumf_apply, broadcast_apply, col0, col1, col2, col4, col5, col6, col7]
  rfl

theorem pay15_apply : k0_pay15 v12 v22 v32 v38 acc c1 c2 (ix1 r)
    = ((((acc (ix1 r) + max ((c1 (ix1 r) + c2 (ix1 r)) - v38 (ix2 r (0 : Fin 8))) Spec.zero)
        + rowTerm v12 v22 v32 v38 r 1 6 2 true) + rowTerm v12 v22 v32 v38 r 2 4 4 false)
        + rowTerm v12 v22 v32 v38 r 2 4 1 true) + rowTerm v12 v22 v32 v38 r 2 4 2 true := by
  unfold k0_pay15
  simp only [addf_apply, subf_apply, maximumf_apply, broadcast_apply, col0, col1, col2, col4, col5, col6, col7]
  rfl

theorem pay18_apply : k0_pay18 v12 v22 v32 v38 acc c1 c2 (ix1 r)
    = ((((acc (ix1 r) + max ((c1 (ix1 r) + c2 (ix1 r)) - v32 (ix2 r (5 : Fin 8))) Spec.zero)
        + rowTerm v12 v22 v32 v38 r 2 5 0 true) + rowTerm v12 v22 v32 v38 r 2 5 2 true)
        + rowTerm v12 v22 v32 v38 r 2 6 6 false) + rowTerm v12 v22 v32 v38 r 2 7 7 false := by
  unfold k0_pay18
  simp only [addf_apply, subf_apply, maximumf_apply, broadcast_apply, col0, col1, col2, col4, col5, col6, col7]
  rfl

theorem pay21_apply : k0_pay21 v12 v22 v32 v38 acc c1 c2 (ix1 r)
    = ((((acc (ix1 r) + max ((c1 (ix1 r) + c2 (ix1 r)) - v38 (ix2 r (2 : Fin 8))) Spec.zero)
        + rowTerm v12 v22 v32 v38 r 4 0 4 false) + rowTerm v12 v22 v32 v38 r 4 0 1 true)
        + rowTerm v12 v22 v32 v38 r 4 0 2 true) + rowTerm v12 v22 v32 v38 r 4 2 4 false := by
  unfold k0_pay21
  simp only [addf_apply, subf_apply, maximumf_apply, broadcast_apply, col0, col1, col2, col4, col5, col6, col7]
  rfl

theorem pay24_apply : k0_pay24 v12 v22 v32 v38 acc c1 c2 (ix1 r)
    = ((((acc (ix1 r) + max ((c1 (ix1 r) + c2 (ix1 r)) - v38 (ix2 r (1 : Fin 8))) Spec.zero)
        + rowTerm v12 v22 v32 v38 r 4 2 2 true) + rowTerm v12 v22 v32 v38 r 5 1 5 false)
        + rowTerm v12 v22 v32 v38 r 5 1 0 true) + rowTerm v12 v22 v32 v38 r 5 1 2 true := by
  unfold k0_pay24
  simp only [addf_apply, subf_apply, maximumf_apply, broadcast_apply, col0, col1, col2, col4, col5, col6, col7]
  rfl

theorem pay27_apply : k0_pay27 v12 v22 v32 v38 acc c1 c2 (ix1 r)
    = ((((acc (ix1 r) + max ((c1 (ix1 r) + c2 (ix1 r)) - v32 (ix2 r (5 : Fin 8))) Spec.zero)
        + rowTerm v12 v22 v32 v38 r 5 2 0 true) + rowTerm v12 v22 v32 v38 r 5 2 2 true)
        + rowTerm v12 v22 v32 v38 r 6 2 6 false) + rowTerm v12 v22 v32 v38 r 7 2 7 false := by
  unfold k0_pay27
  simp only [addf_apply, subf_apply, maximumf_apply, broadcast_apply, col0, col1, col2, col4, col5, col6, col7]
  rfl

/-- The last term, added onto the accumulator before the store. -/
theorem pay1_apply : k0_pay1 v38 acc c1 c2 (ix1 r)
    = acc (ix1 r) + max ((c1 (ix1 r) + c2 (ix1 r)) - v38 (ix2 r (2 : Fin 8))) Spec.zero := by
  unfold k0_pay1
  simp only [addf_apply, subf_apply, maximumf_apply, broadcast_apply, col0, col1, col2, col4, col5, col6, col7]
  rfl

end Parts

/-! ## The whole chain -/

/-- A contribution whose third input enters through its log-softmax, written out. -/
theorem termOf_false (la lb lg ln : Spec.Row) (ai bi gi : Fin 8) :
    Spec.termOf la lb lg ln ai bi gi false = max ((la ai + lb bi) - lg gi) Spec.zero := rfl
/-- A contribution whose third input enters through its complement, written out. -/
theorem termOf_true (la lb lg ln : Spec.Row) (ai bi gi : Fin 8) :
    Spec.termOf la lb lg ln ai bi gi true = max ((la ai + lb bi) - ln gi) Spec.zero := rfl

/-- THE KERNEL'S STORED VALUE AT ROW `r`: the thirty-six contributions, built from the four log-softmax arrays'
    entries along the row, added one after the other onto zero.  The eight groups are opened outermost first; each
    group's first term meets the two columns handed to it, which are entries of the first two arrays. -/
theorem kernelPay_apply (v0 v1 v2 : Vec Ideal S32768x8 .f32) (r : Fin 32768) :
    kernelPay (F := Ideal) v0 v1 v2 (ix1 r)
      = Cert.Spec.chain36 Cert.Spec.zero (Cert.Spec.termOf (fun j => k0_pay2 (F := Ideal) v0 (ix2 r j)) (fun j => k0_pay3 (F := Ideal) v1 (ix2 r j))
          (fun j => k0_pay4 (F := Ideal) v2 (ix2 r j)) (fun j => k0_pay5 (F := Ideal) v2 (ix2 r j))) := by
  unfold kernelPay
  rw [pay1_apply, pay27_apply, pay24_apply, pay21_apply, pay18_apply, pay15_apply, pay12_apply, pay9_apply, pay6_apply]
  rw [pay7_apply, pay8_apply, pay10_apply, pay11_apply, pay13_apply, pay14_apply, pay16_apply, pay17_apply,
    pay19_apply, pay20_apply, pay22_apply, pay23_apply, pay25_apply, pay26_apply, pay28_apply, pay29_apply]
  unfold Spec.chain36
  simp only [termOf_false, termOf_true]

end Cert.KernelIdeal.Chain

end
-- ==== Proof.KernelSoftmax.lean ====
/-
  The kernel's log-softmax of a block of rows, and the clamped complement of the third one, read at an index.

  A block is 32768 rows of eight lanes.  The kernel takes each row's maximum (a reduction along the lanes from
  `-∞`), keeps it as a one-column array, spreads the column back over the eight lanes and subtracts; it then sums
  the exponentials of the shifted row, takes the logarithm of the one-column array of sums, spreads that over the
  lanes and subtracts again.  Read at row `r` and lane `j` this is
  `(x j - M) - log (∑ k, exp (x k - M))` with `x` the row and `M` its maximum: the specification's `lsm`.  The
  steps: a reduction along the lanes read at a row is the fold (the sum) over the row's eight entries; a vector
  kept as one column and spread over the lanes reads, at `(r, j)`, its entry `r`; the pointwise operations
  read through.  The complement `log (max (1 - exp l) ε)` is pointwise in the log-softmax `l`.
  Everything is on the extended reals, where no step needs a finiteness side condition.
-/
import proofs.«101639_j25400436588776_1_alg».proof.Proof.Gen.KernelIdeal.Skeleton
import proofs.«101639_j25400436588776_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.Softmax

open Cert.KernelIdeal Cert.KernelIdeal.Gen Idealize.ShloMosaic Idealize.ShloMosaic.ValueIdx

/-! ## A vector kept as one column, and one column spread over the lanes -/

section Layout
variable {α : Type}

/-- An `[a]` vector cast to the one-column array `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column array `[a, 1]` broadcast to `[a, b]` reads, at `(i, j)`, the column's entry of row `i`. -/
theorem broadcastTo_a1_ab_apply {a b : ℕ} (w : (⟨2, ![a, 1]⟩ : Shape).Idx → α)
    (h : (⟨2, ![a, 1]⟩ : Shape).Broadcasts ⟨2, ![a, b]⟩) (i : Fin a) (j : Fin b) :
    broadcastTo ⟨2, ![a, b]⟩ w h (ix2 i j) = w (ix2 i (0 : Fin 1)) := by
  refine broadcastTo_apply w h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-- A per-row vector kept as a column and spread over the eight lanes reads, at `(r, j)`, its entry `r`. -/
theorem spread_apply (z : FVec Ideal S32768 .f32) (r : Fin 32768) (j : Fin 8) :
    broadcastTo S32768x8 (shapeCast S32768x1 z shapeCasts_S32768_S32768x1) broadcasts_S32768x1_S32768x8 (ix2 r j)
      = z (ix1 r) :=
  (broadcastTo_a1_ab_apply _ broadcasts_S32768x1_S32768x8 r j).trans
    (shapeCast_a_a1_apply z shapeCasts_S32768_S32768x1 r (0 : Fin 1))

/-- The same with the logarithm taken on the column: at `(r, j)` the logarithm of entry `r`. -/
theorem spreadLog_apply (z : FVec Ideal S32768 .f32) (r : Fin 32768) (j : Fin 8) :
    broadcastTo S32768x8 (log (shapeCast S32768x1 z shapeCasts_S32768_S32768x1)) broadcasts_S32768x1_S32768x8 (ix2 r j)
      = Ideal.log (z (ix1 r)) :=
  (broadcastTo_a1_ab_apply _ broadcasts_S32768x1_S32768x8 r j).trans
    (congrArg Ideal.log (shapeCast_a_a1_apply z shapeCasts_S32768_S32768x1 r (0 : Fin 1)))

/-! ## The two reductions along the lanes, read at a row -/

/-- The reduced index `r` with lane `k` put back is `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The maximum along the lanes from `-∞`, at row `r`: the fold of `max` over the row's eight entries. -/
theorem rowMax_apply (v : FVec Ideal S32768x8 .f32) (r : Fin 32768) :
    multiReduction .maximumf [1] S32768 v 0xFF800000#32 reduces_S32768x8_S32768 (.inl rfl) rfl (ix1 r)
      = Cert.Spec.rmax fun k => v (ix2 r k) := by
  refine (Ideal.multiReduction_maximumf_single v _ reduces_S32768x8_S32768 (.inl rfl) rfl (ix1 r)).trans ?_
  have hf : (v ∘ reduces_S32768x8_S32768.lift (ix1 r)) = fun k : Fin 8 => v (ix2 r k) :=
    funext fun k => congrArg v (lift_row reduces_S32768x8_S32768 r k)
  unfold Cert.Spec.rmax
  exact congrArg (fun f => Finset.fold max (Ideal.ofBits .f32 0xFF800000#32) f (Finset.univ : Finset (Fin 8))) hf

/-- The sum along the lanes, at row `r`: the sum of the row's eight entries. -/
theorem rowSum_apply (w : FVec Ideal S32768x8 .f32) (r : Fin 32768) :
    multiReduction .add [1] S32768 w 0x00000000#32 reduces_S32768x8_S32768 (.inl rfl) rfl (ix1 r)
      = ∑ k : Fin 8, w (ix2 r k) := by
  refine (Ideal.multiReduction_add_single w _ reduces_S32768x8_S32768 (.inl rfl) rfl (ix1 r)).trans ?_
  exact Finset.sum_congr rfl fun k _ => congrArg w (lift_row reduces_S32768x8_S32768 r k)

/-! ## The log-softmax of a block -/

/-- The block minus its row maxima, at `(r, k)`: the row's shifted entry. -/
theorem shift_apply (v : FVec Ideal S32768x8 .f32) (r : Fin 32768) (k : Fin 8) :
    subf v (broadcastTo S32768x8 (shapeCast S32768x1
        (multiReduction .maximumf [1] S32768 v 0xFF800000#32 reduces_S32768x8_S32768 (.inl rfl) rfl)
        shapeCasts_S32768_S32768x1) broadcasts_S32768x1_S32768x8) (ix2 r k)
      = Cert.Spec.shift (fun k => v (ix2 r k)) k :=
  congrArg (fun m => v (ix2 r k) - m) ((spread_apply _ r k).trans (rowMax_apply v r))

/-- A block `s` whose row `r` is the shifted row of `x`, minus the logarithm of the row sums of its exponentials, is at
    `(r, j)` the log-softmax of `x` at lane `j`. -/
theorem lsm_of_shift (x : Cert.Spec.Row) (s : FVec Ideal S32768x8 .f32) (r : Fin 32768)
    (hs : ∀ k : Fin 8, s (ix2 r k) = Cert.Spec.shift x k) (j : Fin 8) :
    subf s (broadcastTo S32768x8 (log (shapeCast S32768x1
        (multiReduction .add [1] S32768 (exp s) 0x00000000#32 reduces_S32768x8_S32768 (.inl rfl) rfl)
        shapeCasts_S32768_S32768x1)) broadcasts_S32768x1_S32768x8) (ix2 r j)
      = Cert.Spec.lsm x j := by
  have hsum : multiReduction .add [1] S32768 (exp s) 0x00000000#32 reduces_S32768x8_S32768 (.inl rfl) rfl (ix1 r)
      = ∑ k : Fin 8, Ideal.exp (Cert.Spec.shift x k) :=
    (rowSum_apply (exp s) r).trans (Finset.sum_congr rfl fun k _ => congrArg Ideal.exp (hs k))
  exact congrArg₂ (fun p q : EReal => p - q) (hs j) ((spreadLog_apply _ r j).trans (congrArg Ideal.log hsum))

/-- The kernel's log-softmax of a block `v`, read at `(r, j)`: the log-softmax of row `r` at lane `j`. -/
theorem logSoftmax_apply (v : FVec Ideal S32768x8 .f32) (r : Fin 32768) (j : Fin 8) :
    subf
      (subf v (broadcastTo S32768x8 (shapeCast S32768x1
        (multiReduction .maximumf [1] S32768 v 0xFF800000#32 reduces_S32768x8_S32768 (.inl rfl) rfl)
        shapeCasts_S32768_S32768x1) broadcasts_S32768x1_S32768x8))
      (broadcastTo S32768x8 (log (shapeCast S32768x1
        (multiReduction .add [1] S32768
          (exp (subf v (broadcastTo S32768x8 (shapeCast S32768x1
            (multiReduction .maximumf [1] S32768 v 0xFF800000#32 reduces_S32768x8_S32768 (.inl rfl) rfl)
            shapeCasts_S32768_S32768x1) broadcasts_S32768x1_S32768x8)))
          0x00000000#32 reduces_S32768x8_S32768 (.inl rfl) rfl)
        shapeCasts_S32768_S32768x1)) broadcasts_S32768x1_S32768x8) (ix2 r j)
      = Cert.Spec.lsm (fun k => v (ix2 r k)) j :=
  lsm_of_shift (fun k => v (ix2 r k)) _ r (fun k => shift_apply v r k) j

/-! ## The three payloads and the complement -/

/-- The first input's log-softmax block at `(r, j)`. -/
theorem pay2_apply (x : Vec Ideal S32768x8 .f32) (r : Fin 32768) (j : Fin 8) :
    k0_pay2 (F := Ideal) x (ix2 r j) = Cert.Spec.lsm (fun k => x (ix2 r k)) j := by
  unfold k0_pay2
  exact logSoftmax_apply x r j

/-- The second input's log-softmax block at `(r, j)`. -/
theorem pay3_apply (x : Vec Ideal S32768x8 .f32) (r : Fin 32768) (j : Fin 8) :
    k0_pay3 (F := Ideal) x (ix2 r j) = Cert.Spec.lsm (fun k => x (ix2 r k)) j := by
  unfold k0_pay3
  exact logSoftmax_apply x r j

/-- The third input's log-softmax block at `(r, j)`. -/
theorem pay4_apply (x : Vec Ideal S32768x8 .f32) (r : Fin 32768) (j : Fin 8) :
    k0_pay4 (F := Ideal) x (ix2 r j) = Cert.Spec.lsm (fun k => x (ix2 r k)) j := by
  unfold k0_pay4
  exact logSoftmax_apply x r j

/-- `log (max (1 - exp p) ε)` of a block `p` is pointwise. -/
theorem complement_apply (p : FVec Ideal S32768x8 .f32) (i : S32768x8.Idx) :
    log (maximumf (subf (broadcast S32768x8 (Scalar.ofBits (F := Ideal) .f32 0x3F800000#32)) (exp p))
        (broadcast S32768x8 (Scalar.ofBits (F := Ideal) .f32 0x322BCC77#32))) i
      = Ideal.log (max (Cert.Spec.one - Ideal.exp (p i)) Cert.Spec.eps) := rfl

/-- The third input's clamped complement `log (max (1 - exp (log-softmax)) ε)` at `(r, j)`. -/
theorem pay5_apply (x : Vec Ideal S32768x8 .f32) (r : Fin 32768) (j : Fin 8) :
    k0_pay5 (F := Ideal) x (ix2 r j) = Cert.Spec.lnot (fun k => x (ix2 r k)) j := by
  unfold k0_pay5
  exact (complement_apply (k0_pay4 x) (ix2 r j)).trans
    (congrArg (fun e => Ideal.log (max (Cert.Spec.one - Ideal.exp e) Cert.Spec.eps)) (pay4_apply x r j))

end Cert.KernelIdeal.Softmax

end
-- ==== Proof.KernelRow.lean ====
/-
  The kernel body's result at a block row is the specification of the three block rows.

  The body's one store writes the whole output block; its value is the accumulated payload of the three loaded blocks.
  Read at a row it is the chain of the thirty-six contributions over the body's own log-softmax values and clamped
  complement (`kernelPay_apply`), each of which at a lane is the specification's (`pay2_apply` … `pay5_apply`), and
  the chain is the row's result (`rowResult_eq_chain`).
-/
import proofs.«101639_j25400436588776_1_alg».proof.Proof.KernelArray
import proofs.«101639_j25400436588776_1_alg».proof.Proof.KernelChain
import proofs.«101639_j25400436588776_1_alg».proof.Proof.KernelSoftmax

noncomputable section

namespace Cert.KernelIdeal.ArrayValue

open Cert.KernelIdeal Cert.KernelIdeal.Gen Cert.KernelIdeal.GenP Idealize.ShloMosaic Idealize.ShloMosaic.ValueIdx

theorem hz1 : (![0] : Fin 1 → Nat) = fun _ => 0 := funext fun a => by fin_cases a <;> rfl
theorem hz2 : (![0, 0] : Fin 2 → Nat) = fun _ => 0 := funext fun a => by fin_cases a <;> rfl

/-- The body's result at block row `r` is the specification of the three block rows `r`. -/
theorem out_row : RowSpec := by
  intro X0 X1 X2 r
  unfold out0_3
  rw [View.canon_unit_zero hz1]
  simp only [View.ld_unit_zero (S := S32768x8) hz2]
  refine (Cert.KernelIdeal.Chain.kernelPay_apply X0 X1 X2 r).trans ?_
  rw [Cert.Spec.rowResult_eq_chain]
  simp only [Cert.KernelIdeal.Softmax.pay2_apply, Cert.KernelIdeal.Softmax.pay3_apply, Cert.KernelIdeal.Softmax.pay4_apply,
    Cert.KernelIdeal.Softmax.pay5_apply]
  rfl

end Cert.KernelIdeal.ArrayValue

end
-- ==== Proof.RefTerm.lean ====
/-
  The reference's result as one term of its three arguments, stage by stage.

  `lsmH x` is the host's log-softmax of a `[4194304, 8]` array along its rows: the row maxima (a reduce from `-∞`,
  joined once more with a splat of `-∞`), the array shifted by them, and the shifted array minus the logarithm of
  the row sums of its exponentials.  `lnotH g` is `log (max ε (1 - exp (lsmH g)))`.  `cols x c` gathers, for each
  of thirty-six column numbers `c` (with the usual wrap of a negative number, which never applies here), the
  columns of `x` into a `[4194304, 36]` array.  `refOut` adds the gathered columns of the first two inputs'
  log-softmax, subtracts the third input's gathered complement or log-softmax as the table of flags selects,
  clamps below at zero and sums each row of thirty-six from zero.
-/
import proofs.«101639_j25400436588776_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The row maxima as the host computes them. -/
def rowMaxH (x : FVec F S4194304x8 .f32) : FVec F S4194304 .f32 :=
  maximumf (broadcastInDim S4194304 ![] bcast_S_S4194304 (constant S_ .f32 0xFF800000#32))
    (Host.reduce FloatOps.maximumf x (constant S_ .f32 0xFF800000#32) reducesTo_S4194304x8_S4194304_d1 h_S_)

/-- The array minus its row maxima. -/
def shiftH (x : FVec F S4194304x8 .f32) : FVec F S4194304x8 .f32 :=
  subf x (broadcastInDim S4194304x8 ![0, 1] bcast_S4194304x1_S4194304x8_0_1
    (broadcastInDim S4194304x1 ![0] bcast_S4194304_S4194304x1_0 (rowMaxH x)))

/-- The host's log-softmax along the rows. -/
def lsmH (x : FVec F S4194304x8 .f32) : FVec F S4194304x8 .f32 :=
  subf (shiftH x) (broadcastInDim S4194304x8 ![0, 1] bcast_S4194304x1_S4194304x8_0_1
    (Host.log (broadcastInDim S4194304x1 ![0] bcast_S4194304_S4194304x1_0
      (Host.reduceAdd (Host.exp (shiftH x)) (constant S_ .f32 0x00000000#32) reducesTo_S4194304x8_S4194304_d1 h_S_))))

/-- `log (max ε (1 - exp (lsmH g)))`. -/
def lnotH (g : FVec F S4194304x8 .f32) : FVec F S4194304x8 .f32 :=
  Host.log (maximumf (broadcastInDim S4194304x8 ![] bcast_S_S4194304x8 (id (constant S_ .f32 0x322BCC77#32)))
    (subf (broadcastInDim S4194304x8 ![] bcast_S_S4194304x8 (constant S_ .f32 0x3F800000#32)) (Host.exp (lsmH g))))

/-- The column numbers as the gather's start indices: a negative one wrapped by the axis' size (never the case:
    the flags are all zero), laid as a `[36, 1]` column. -/
def colIdx (c : IVec S36 32) : IVec S36x1 32 :=
  broadcastInDim S36x1 ![0] bcast_S36_S36x1_0
    (select (constantI S36 1 0#1) (addi c (broadcastInDim S36 ![] bcast_S_S36 (constantI S_ 32 8#32))) c)

/-- The thirty-six gathered columns of `x`. -/
def cols (x : FVec F S4194304x8 .f32) (c : IVec S36 32) : FVec F S4194304x36 .f32 :=
  Host.gather gather_S4194304x8_S36x1_S4194304x36_0_1_n_n_1_1_41943041 x (colIdx c)

/-- The reference's result. -/
def refOut (a b g : FVec F S4194304x8 .f32) : FVec F S4194304 .f32 :=
  Host.reduceAdd
    (maximumf
      (subf (addf (cols (lsmH a) (fun i => lit0 (S36.rowMajor i))) (cols (lsmH b) (fun i => lit1 (S36.rowMajor i))))
        (select
          (broadcastInDim S4194304x36 ![0, 1] bcast_S1x36_S4194304x36_0_1
            (broadcastInDim S1x36 ![1] bcast_S36_S1x36_1 (fun i => lit3 (S36.rowMajor i))))
          (cols (lnotH g) (fun i => lit2 (S36.rowMajor i))) (cols (lsmH g) (fun i => lit2 (S36.rowMajor i)))))
      (broadcastInDim S4194304x36 ![] bcast_S_S4194304x36 (constant S_ .f32 0x00000000#32)))
    (constant S_ .f32 0x00000000#32) reducesTo_S4194304x36_S4194304_d1 h_S_

end Cert.ReferenceIdeal.RefValue

end
-- ==== Proof.RefRun.lean ====
/-
  The reference's run, read back.

  The reference is a straight line of ninety-six host operations once its calls are read as their bodies: nine
  constant lines (the four index tables, four all-false masks, the flag table laid as a row), three log-softmax
  bodies of fifteen lines each, the nine lines of the clamped complement's logarithm, four groups of six lines
  that gather thirty-six columns each, and the nine closing lines (the select by the flags, the sum, the
  difference, the clamp at zero, the row sums).  The line is cut into these ten stretches.  For each stretch and
  every valuation of the buffers, the buffer it produces holds the stretch's pure term of the buffers it reads,
  and a buffer it does not write keeps its contents; chained from the launch contents, the last buffer holds
  the composed term of the three arguments, and the arguments are unchanged.
-/
import proofs.«101639_j25400436588776_1_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The line, in ten stretches -/

/-- The nine constant lines: three index tables, the all-false masks, the flag table and its row form. -/
def pre : List (HloOp τ sig (Elt F)) :=
  [ nullary main_c (fun i => lit0 (S36.rowMajor i)),
    nullary main_c_0 (constantI S36 1 0#1),
    nullary main_c_1 (fun i => lit1 (S36.rowMajor i)),
    nullary main_c_2 (constantI S36 1 0#1),
    nullary main_c_3 (fun i => lit2 (S36.rowMajor i)),
    nullary main_c_4 (constantI S36 1 0#1),
    nullary main_c_5 (constantI S36 1 0#1),
    nullary main_c_6 (fun i => lit3 (S36.rowMajor i)),
    unary main_c_6 main_v0 (broadcastInDim S1x36 ![1] bcast_S36_S1x36_1 : (⟨S36, .i1⟩ : BufTy).Contents (Elt F) → (⟨S1x36, .i1⟩ : BufTy).Contents (Elt F)) ]

/-- One log-softmax body over its argument and the buffers of one call: fifteen lines. -/
def lsmOps (x : TRef sig ⟨S4194304x8, .f32⟩) (φ : fn_log_softmax.Bufs) : List (HloOp τ sig (Elt F)) :=
  [ TRef.nullary φ.cst (constant S_ .f32 0xFF800000#32),
    TRef.binary x φ.cst φ.v0 (fun x v => Host.reduce FloatOps.maximumf x v reducesTo_S4194304x8_S4194304_d1 h_S_),
    TRef.nullary φ.cst_0 (constant S_ .f32 0xFF800000#32),
    TRef.unary φ.cst_0 φ.v1 (broadcastInDim S4194304 ![] bcast_S_S4194304),
    TRef.binary φ.v1 φ.v0 φ.v2 maximumf,
    TRef.unary φ.v2 φ.v3 (broadcastInDim S4194304x1 ![0] bcast_S4194304_S4194304x1_0),
    TRef.unary φ.v3 φ.v4 (broadcastInDim S4194304x8 ![0, 1] bcast_S4194304x1_S4194304x8_0_1),
    TRef.binary x φ.v4 φ.v5 subf,
    TRef.unary φ.v5 φ.v6 Host.exp,
    TRef.nullary φ.cst_1 (constant S_ .f32 0x00000000#32),
    TRef.binary φ.v6 φ.cst_1 φ.v7 (fun x v => Host.reduceAdd x v reducesTo_S4194304x8_S4194304_d1 h_S_),
    TRef.unary φ.v7 φ.v8 (broadcastInDim S4194304x1 ![0] bcast_S4194304_S4194304x1_0),
    TRef.unary φ.v8 φ.v9 Host.log,
    TRef.unary φ.v9 φ.v10 (broadcastInDim S4194304x8 ![0, 1] bcast_S4194304x1_S4194304x8_0_1),
    TRef.binary φ.v5 φ.v10 φ.v11 subf ]

/-- The three log-softmax bodies, one per argument. -/
def lsm0 : List (HloOp τ sig (Elt F)) := lsmOps (.of main_arg0) main_call0
def lsm1 : List (HloOp τ sig (Elt F)) := lsmOps (.of main_arg1) main_call1
def lsm2 : List (HloOp τ sig (Elt F)) := lsmOps (.of main_arg2) main_call2

/-- The nine lines from the third log-softmax to the logarithm of its clamped complement. -/
def comp : List (HloOp τ sig (Elt F)) :=
  [ unary main_v3 main_v4 (Host.exp : (⟨S4194304x8, .f32⟩ : BufTy).Contents (Elt F) → (⟨S4194304x8, .f32⟩ : BufTy).Contents (Elt F)),
    nullary main_cst (constant S_ .f32 0x3F800000#32),
    unary main_cst main_v5 (broadcastInDim S4194304x8 ![] bcast_S_S4194304x8 : (⟨S_, .f32⟩ : BufTy).Contents (Elt F) → (⟨S4194304x8, .f32⟩ : BufTy).Contents (Elt F)),
    binary main_v5 main_v4 main_v6 (subf : (⟨S4194304x8, .f32⟩ : BufTy).Contents (Elt F) → (⟨S4194304x8, .f32⟩ : BufTy).Contents (Elt F) → (⟨S4194304x8, .f32⟩ : BufTy).Contents (Elt F)),
    nullary main_cst_7 (constant S_ .f32 0x322BCC77#32),
    TRef.unary (.of main_cst_7 : TRef sig ⟨S_, .f32⟩) main_call3.v0 id,
    TRef.unary main_call3.v0 main_call3.v1 (broadcastInDim S4194304x8 ![] bcast_S_S4194304x8),
    TRef.binary main_call3.v1 (.of main_v6 : TRef sig ⟨S4194304x8, .f32⟩) main_call3.v2 maximumf,
    unary main_v7 main_v8 (Host.log : (⟨S4194304x8, .f32⟩ : BufTy).Contents (Elt F) → (⟨S4194304x8, .f32⟩ : BufTy).Contents (Elt F)) ]

/-- One gather of thirty-six columns at given column numbers (wrapped where a mask holds): six lines. -/
def colOps (c : TRef sig ⟨S36, .i32⟩) (msk : TRef sig ⟨S36, .i1⟩) (x : TRef sig ⟨S4194304x8, .f32⟩)
    (e : TRef sig ⟨S_, .i32⟩) (eb s w : TRef sig ⟨S36, .i32⟩) (ix : TRef sig ⟨S36x1, .i32⟩)
    (y : TRef sig ⟨S4194304x36, .f32⟩) : List (HloOp τ sig (Elt F)) :=
  [ TRef.nullary e (constantI S_ 32 8#32),
    TRef.unary e eb (broadcastInDim S36 ![] bcast_S_S36),
    TRef.binary c eb s addi,
    TRef.ternary msk s c w select,
    TRef.unary w ix (broadcastInDim S36x1 ![0] bcast_S36_S36x1_0),
    TRef.binary x ix y (fun x i => Host.gather gather_S4194304x8_S36x1_S4194304x36_0_1_n_n_1_1_41943041 x i) ]

/-- The four gathers: of the first two log-softmaxes, of the complement, of the third log-softmax. -/
def colA : List (HloOp τ sig (Elt F)) :=
  colOps (.of main_c) (.of main_c_0) (.of main_v1) (.of main_c_8) (.of main_v9) (.of main_v10) (.of main_v11) (.of main_v12) (.of main_v13)
def colB : List (HloOp τ sig (Elt F)) :=
  colOps (.of main_c_1) (.of main_c_2) (.of main_v2) (.of main_c_9) (.of main_v14) (.of main_v15) (.of main_v16) (.of main_v17) (.of main_v18)
def colN : List (HloOp τ sig (Elt F)) :=
  colOps (.of main_c_3) (.of main_c_4) (.of main_v8) (.of main_c_10) (.of main_v19) (.of main_v20) (.of main_v21) (.of main_v22) (.of main_v23)
def colG : List (HloOp τ sig (Elt F)) :=
  colOps (.of main_c_3) (.of main_c_5) (.of main_v3) (.of main_c_11) (.of main_v24) (.of main_v25) (.of main_v26) (.of main_v27) (.of main_v28)

/-- The nine closing lines: the select by the flags, the sum, the difference, the clamp at zero, the row sums. -/
def fin : List (HloOp τ sig (Elt F)) :=
  [ TRef.unary (.of main_v0 : TRef sig ⟨S1x36, .i1⟩) main_call4.v0 (broadcastInDim S4194304x36 ![0, 1] bcast_S1x36_S4194304x36_0_1),
    TRef.ternary main_call4.v0 (.of main_v23 : TRef sig ⟨S4194304x36, .f32⟩) (.of main_v28 : TRef sig ⟨S4194304x36, .f32⟩) main_call4.v1 select,
    binary main_v13 main_v18 main_v30 (addf : (⟨S4194304x36, .f32⟩ : BufTy).Contents (Elt F) → (⟨S4194304x36, .f32⟩ : BufTy).Contents (Elt F) → (⟨S4194304x36, .f32⟩ : BufTy).Contents (Elt F)),
    binary main_v30 main_v29 main_v31 (subf : (⟨S4194304x36, .f32⟩ : BufTy).Contents (Elt F) → (⟨S4194304x36, .f32⟩ : BufTy).Contents (Elt F) → (⟨S4194304x36, .f32⟩ : BufTy).Contents (Elt F)),
    TRef.nullary main_call5.cst (constant S_ .f32 0x00000000#32),
    TRef.unary main_call5.cst main_call5.v0 (broadcastInDim S4194304x36 ![] bcast_S_S4194304x36),
    TRef.binary (.of main_v31 : TRef sig ⟨S4194304x36, .f32⟩) main_call5.v0 main_call5.v1 maximumf,
    nullary main_cst_12 (constant S_ .f32 0x00000000#32),
    binary main_v32 main_cst_12 main_v33 ((fun x v => Host.reduceAdd x v reducesTo_S4194304x36_S4194304_d1 h_S_) : (⟨S4194304x36, .f32⟩ : BufTy).Contents (Elt F) → (⟨S_, .f32⟩ : BufTy).Contents (Elt F) → (⟨S4194304, .f32⟩ : BufTy).Contents (Elt F)) ]

/-- The ninety-six operations, in order. -/
def ops : List (HloOp τ sig (Elt F)) :=
  pre ++ (lsm0 ++ (lsm1 ++ (lsm2 ++ (comp ++ (colA ++ (colB ++ (colN ++ (colG ++ fin))))))))

/-! ## The program is that line -/

/-- A log-softmax call is its fifteen lines. -/
theorem lsm_body (x : TRef sig ⟨S4194304x8, .f32⟩) (φ : fn_log_softmax.Bufs) :
    (fn_log_softmax.body (F := F) x φ) = seq (lsmOps x φ) := rfl

set_option maxRecDepth 16384 in
set_option maxHeartbeats 4000000 in
/-- @main is the line: the calls read as their bodies, the sequencing reassociated. -/
theorem main_eq (c : Dev nD) : main (F := F) c = seq ops := by
  simp only [ops, pre, lsm0, lsm1, lsm2, lsmOps, comp, colA, colB, colN, colG, colOps, fin, seq_append, seq, main,
    fn_log_softmax.body, fn_clip.body, fn_where.body, fn_relu.body, bind_assoc, pure_bind]
  rfl

/-! ## What the run asks of each line, and which buffers a stretch writes -/

/-- Two lines run in a row: the second from what the first leaves. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A line touches TensorCore buffers only, determines its results, and writes only buffers listed in W. -/
def Ok (W : List (Ref sig .tc)) (op : HloOp τ sig (Elt F)) : Prop :=
  op.bufs ⊆ tcRefs τ sig ∧ op.fresh = ∅ ∧ op.writes ⊆ (W.map (Proc.devRef (τ := τ) .tc)).toFinset

theorem wsub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

theorem ok0 {W : List (Ref sig .tc)} {y : Ref sig .tc} {v : y.ty.Contents (Elt F)} {hy} (h : y ∈ W) :
    Ok W (nullary (τ := τ) y v hy) := ⟨nullary_bufs_sub .., rfl, wsub h⟩
theorem ok1 {W : List (Ref sig .tc)} {x y : Ref sig .tc} {f : x.ty.Contents (Elt F) → y.ty.Contents (Elt F)} {hx hy}
    (h : y ∈ W) : Ok W (unary (τ := τ) x y f hx hy) := ⟨unary_bufs_sub .., rfl, wsub h⟩
theorem ok2 {W : List (Ref sig .tc)} {a b y : Ref sig .tc}
    {f : a.ty.Contents (Elt F) → b.ty.Contents (Elt F) → y.ty.Contents (Elt F)} {ha hb hy}
    (h : y ∈ W) : Ok W (binary (τ := τ) a b y f ha hb hy) := ⟨binary_bufs_sub .., rfl, wsub h⟩
theorem ok3 {W : List (Ref sig .tc)} {c a b y : Ref sig .tc}
    {f : c.ty.Contents (Elt F) → a.ty.Contents (Elt F) → b.ty.Contents (Elt F) → y.ty.Contents (Elt F)} {hc ha hb hy}
    (h : y ∈ W) : Ok W (ternary (τ := τ) c a b y f hc ha hb hy) := ⟨ternary_bufs_sub .., rfl, wsub h⟩

theorem Ok.sub {W : List (Ref sig .tc)} {l : List (HloOp τ sig (Elt F))} (h : l.Forall (Ok W)) :
    l.Forall fun op => op.bufs ⊆ tcRefs τ sig := List.Forall.imp (fun _ h => h.1) h
theorem Ok.fresh {W : List (Ref sig .tc)} {l : List (HloOp τ sig (Elt F))} (h : l.Forall (Ok W)) :
    l.Forall fun op => op.fresh = ∅ := List.Forall.imp (fun _ h => h.2.1) h
/-- A buffer outside the list keeps its contents over the stretch. -/
theorem Ok.pass {W : List (Ref sig .tc)} {l : List (HloOp τ sig (Elt F))} (h : l.Forall (Ok W))
    (V : Valuation τ sig (Elt F)) {r : Ref sig .tc} (hr : r ∉ W) :
    after l V (Proc.devRef .tc r) = V (Proc.devRef .tc r) :=
  after_of_writes_sub l V (List.Forall.imp (fun _ h => h.2.2) h) hr

def preW : List (Ref sig .tc) := [main_c, main_c_0, main_c_1, main_c_2, main_c_3, main_c_4, main_c_5, main_c_6, main_v0]
def lsmW (φ : fn_log_softmax.Bufs) : List (Ref sig .tc) :=
  [φ.cst.ref, φ.v0.ref, φ.cst_0.ref, φ.v1.ref, φ.v2.ref, φ.v3.ref, φ.v4.ref, φ.v5.ref, φ.v6.ref, φ.cst_1.ref, φ.v7.ref,
    φ.v8.ref, φ.v9.ref, φ.v10.ref, φ.v11.ref]
def compW : List (Ref sig .tc) :=
  [main_v4, main_cst, main_v5, main_v6, main_cst_7, main_call3_v0, main_call3_v1, main_v7, main_v8]
def colW (e : TRef sig ⟨S_, .i32⟩) (eb s w : TRef sig ⟨S36, .i32⟩) (ix : TRef sig ⟨S36x1, .i32⟩)
    (y : TRef sig ⟨S4194304x36, .f32⟩) : List (Ref sig .tc) := [e.ref, eb.ref, s.ref, w.ref, ix.ref, y.ref]
def finW : List (Ref sig .tc) :=
  [main_call4_v0, main_v29, main_v30, main_v31, main_call5_cst, main_call5_v0, main_v32, main_cst_12, main_v33]

theorem pre_ok : (pre (F := F)).Forall (Ok preW) := by
  unfold pre
  exact ⟨ok0 (by decide), ok0 (by decide), ok0 (by decide), ok0 (by decide), ok0 (by decide), ok0 (by decide),
    ok0 (by decide), ok0 (by decide), ok1 (by decide)⟩

theorem lsm_ok (x : TRef sig ⟨S4194304x8, .f32⟩) (φ : fn_log_softmax.Bufs) :
    (lsmOps (F := F) x φ).Forall (Ok (lsmW φ)) := by
  unfold lsmOps
  exact ⟨ok0 (by simp [lsmW]), ok2 (by simp [lsmW]), ok0 (by simp [lsmW]), ok1 (by simp [lsmW]), ok2 (by simp [lsmW]),
    ok1 (by simp [lsmW]), ok1 (by simp [lsmW]), ok2 (by simp [lsmW]), ok1 (by simp [lsmW]), ok0 (by simp [lsmW]),
    ok2 (by simp [lsmW]), ok1 (by simp [lsmW]), ok1 (by simp [lsmW]), ok1 (by simp [lsmW]), ok2 (by simp [lsmW])⟩

theorem comp_ok : (comp (F := F)).Forall (Ok compW) := by
  unfold comp
  exact ⟨ok1 (by decide), ok0 (by decide), ok1 (by decide), ok2 (by decide), ok0 (by decide), ok1 (by decide),
    ok1 (by decide), ok2 (by decide), ok1 (by decide)⟩

theorem col_ok (c : TRef sig ⟨S36, .i32⟩) (msk : TRef sig ⟨S36, .i1⟩) (x : TRef sig ⟨S4194304x8, .f32⟩)
    (e : TRef sig ⟨S_, .i32⟩) (eb s w : TRef sig ⟨S36, .i32⟩) (ix : TRef sig ⟨S36x1, .i32⟩)
    (y : TRef sig ⟨S4194304x36, .f32⟩) : (colOps (F := F) c msk x e eb s w ix y).Forall (Ok (colW e eb s w ix y)) := by
  unfold colOps
  exact ⟨ok0 (by simp [colW]), ok1 (by simp [colW]), ok2 (by simp [colW]), ok3 (by simp [colW]), ok1 (by simp [colW]),
    ok2 (by simp [colW])⟩

theorem fin_ok : (fin (F := F)).Forall (Ok finW) := by
  unfold fin
  exact ⟨ok1 (by decide), ok3 (by decide), ok2 (by decide), ok2 (by decide), ok0 (by decide), ok1 (by decide),
    ok2 (by decide), ok0 (by decide), ok2 (by decide)⟩

/-! ## Each stretch read back, over any valuation -/

/-- Written through a typed reference and read back through the same one, a value is unchanged. -/
theorem ofBuf_toBuf {T : BufTy} (x : TRef sig T) (v : T.Contents (Elt F)) : x.ofBuf (x.toBuf v) = v := by
  unfold TRef.ofBuf TRef.toBuf
  simp

section Stretches

variable (V : Valuation τ sig (Elt F))

/-- The constants. -/
theorem pre_c : after pre V (no_index (main_c : DevRef τ sig)) = (fun i => lit0 (S36.rowMajor i)) := by
  unfold pre; after_results_simp <;> rfl
theorem pre_c_0 : after pre V (no_index (main_c_0 : DevRef τ sig)) = constantI S36 1 0#1 := by
  unfold pre; after_results_simp <;> rfl
theorem pre_c_1 : after pre V (no_index (main_c_1 : DevRef τ sig)) = (fun i => lit1 (S36.rowMajor i)) := by
  unfold pre; after_results_simp <;> rfl
theorem pre_c_2 : after pre V (no_index (main_c_2 : DevRef τ sig)) = constantI S36 1 0#1 := by
  unfold pre; after_results_simp <;> rfl
theorem pre_c_3 : after pre V (no_index (main_c_3 : DevRef τ sig)) = (fun i => lit2 (S36.rowMajor i)) := by
  unfold pre; after_results_simp <;> rfl
theorem pre_c_4 : after pre V (no_index (main_c_4 : DevRef τ sig)) = constantI S36 1 0#1 := by
  unfold pre; after_results_simp <;> rfl
theorem pre_c_5 : after pre V (no_index (main_c_5 : DevRef τ sig)) = constantI S36 1 0#1 := by
  unfold pre; after_results_simp <;> rfl
theorem pre_v0 : after pre V (no_index (main_v0 : DevRef τ sig))
    = broadcastInDim S1x36 ![1] bcast_S36_S1x36_1 (fun i => lit3 (S36.rowMajor i)) := by
  unfold pre; after_results_simp <;> rfl

/-- A log-softmax stretch leaves the host's log-softmax of its argument. -/
theorem lsm0_res : after lsm0 V (no_index (main_v1 : DevRef τ sig)) = RefValue.lsmH (V (main_arg0 : DevRef τ sig)) := by
  unfold lsm0 lsmOps
  after_results_simp
  simp only [ofBuf_toBuf]
  simp only [TRef.toBuf, TRef.ofBuf, cast_eq]
  simp only [RefValue.lsmH, RefValue.shiftH, RefValue.rowMaxH]
theorem lsm1_res : after lsm1 V (no_index (main_v2 : DevRef τ sig)) = RefValue.lsmH (V (main_arg1 : DevRef τ sig)) := by
  unfold lsm1 lsmOps
  after_results_simp
  simp only [ofBuf_toBuf]
  simp only [TRef.toBuf, TRef.ofBuf, cast_eq]
  simp only [RefValue.lsmH, RefValue.shiftH, RefValue.rowMaxH]
theorem lsm2_res : after lsm2 V (no_index (main_v3 : DevRef τ sig)) = RefValue.lsmH (V (main_arg2 : DevRef τ sig)) := by
  unfold lsm2 lsmOps
  after_results_simp
  simp only [ofBuf_toBuf]
  simp only [TRef.toBuf, TRef.ofBuf, cast_eq]
  simp only [RefValue.lsmH, RefValue.shiftH, RefValue.rowMaxH]

/-- The logarithm of the clamped complement of what the third log-softmax's buffer holds. -/
theorem comp_res : after comp V (no_index (main_v8 : DevRef τ sig))
    = Host.log (maximumf (broadcastInDim S4194304x8 ![] bcast_S_S4194304x8 (id (constant S_ .f32 0x322BCC77#32)))
        (subf (broadcastInDim S4194304x8 ![] bcast_S_S4194304x8 (constant S_ .f32 0x3F800000#32))
          (Host.exp (V (main_v3 : DevRef τ sig))))) := by
  unfold comp
  after_results_simp
  simp only [TRef.toBuf, TRef.ofBuf, cast_eq]

/-- A gather stretch leaves the columns of its operand at the numbers its table and mask give. -/
theorem colA_res : after colA V (no_index (main_v13 : DevRef τ sig))
    = Host.gather gather_S4194304x8_S36x1_S4194304x36_0_1_n_n_1_1_41943041 (V (main_v1 : DevRef τ sig))
        (broadcastInDim S36x1 ![0] bcast_S36_S36x1_0
          (select (V (main_c_0 : DevRef τ sig))
            (addi (V (main_c : DevRef τ sig)) (broadcastInDim S36 ![] bcast_S_S36 (constantI S_ 32 8#32)))
            (V (main_c : DevRef τ sig)))) := by
  unfold colA colOps
  after_results_simp
  simp only [TRef.toBuf, TRef.ofBuf, cast_eq]
theorem colB_res : after colB V (no_index (main_v18 : DevRef τ sig))
    = Host.gather gather_S4194304x8_S36x1_S4194304x36_0_1_n_n_1_1_41943041 (V (main_v2 : DevRef τ sig))
        (broadcastInDim S36x1 ![0] bcast_S36_S36x1_0
          (select (V (main_c_2 : DevRef τ sig))
            (addi (V (main_c_1 : DevRef τ sig)) (broadcastInDim S36 ![] bcast_S_S36 (constantI S_ 32 8#32)))
            (V (main_c_1 : DevRef τ sig)))) := by
  unfold colB colOps
  after_results_simp
  simp only [TRef.toBuf, TRef.ofBuf, cast_eq]
theorem colN_res : after colN V (no_index (main_v23 : DevRef τ sig))
    = Host.gather gather_S4194304x8_S36x1_S4194304x36_0_1_n_n_1_1_41943041 (V (main_v8 : DevRef τ sig))
        (broadcastInDim S36x1 ![0] bcast_S36_S36x1_0
          (select (V (main_c_4 : DevRef τ sig))
            (addi (V (main_c_3 : DevRef τ sig)) (broadcastInDim S36 ![] bcast_S_S36 (constantI S_ 32 8#32)))
            (V (main_c_3 : DevRef τ sig)))) := by
  unfold colN colOps
  after_results_simp
  simp only [TRef.toBuf, TRef.ofBuf, cast_eq]
theorem colG_res : after colG V (no_index (main_v28 : DevRef τ sig))
    = Host.gather gather_S4194304x8_S36x1_S4194304x36_0_1_n_n_1_1_41943041 (V (main_v3 : DevRef τ sig))
        (broadcastInDim S36x1 ![0] bcast_S36_S36x1_0
          (select (V (main_c_5 : DevRef τ sig))
            (addi (V (main_c_3 : DevRef τ sig)) (broadcastInDim S36 ![] bcast_S_S36 (constantI S_ 32 8#32)))
            (V (main_c_3 : DevRef τ sig)))) := by
  unfold colG colOps
  after_results_simp
  simp only [TRef.toBuf, TRef.ofBuf, cast_eq]

/-- The closing lines: the row sums of the clamped differences. -/
theorem fin_res : after fin V (no_index (main_v33 : DevRef τ sig))
    = Host.reduceAdd
        (maximumf
          (subf (addf (V (main_v13 : DevRef τ sig)) (V (main_v18 : DevRef τ sig)))
            (select (broadcastInDim S4194304x36 ![0, 1] bcast_S1x36_S4194304x36_0_1 (V (main_v0 : DevRef τ sig)))
              (V (main_v23 : DevRef τ sig)) (V (main_v28 : DevRef τ sig))))
          (broadcastInDim S4194304x36 ![] bcast_S_S4194304x36 (constant S_ .f32 0x00000000#32)))
        (constant S_ .f32 0x00000000#32) reducesTo_S4194304x36_S4194304_d1 h_S_ := by
  unfold fin
  after_results_simp
  simp only [TRef.toBuf, TRef.ofBuf, cast_eq]

/-! ### What a stretch does not write it keeps -/

variable {r : Ref sig .tc}

theorem pre_pass (h : r ∉ preW) : after pre V (no_index (Proc.devRef .tc r)) = V (Proc.devRef .tc r) := Ok.pass pre_ok V h
theorem lsm0_pass (h : r ∉ lsmW main_call0) : after lsm0 V (no_index (Proc.devRef .tc r)) = V (Proc.devRef .tc r) :=
  Ok.pass (lsm_ok _ _) V h
theorem lsm1_pass (h : r ∉ lsmW main_call1) : after lsm1 V (no_index (Proc.devRef .tc r)) = V (Proc.devRef .tc r) :=
  Ok.pass (lsm_ok _ _) V h
theorem lsm2_pass (h : r ∉ lsmW main_call2) : after lsm2 V (no_index (Proc.devRef .tc r)) = V (Proc.devRef .tc r) :=
  Ok.pass (lsm_ok _ _) V h
theorem comp_pass (h : r ∉ compW) : after comp V (no_index (Proc.devRef .tc r)) = V (Proc.devRef .tc r) := Ok.pass comp_ok V h
theorem colA_pass (h : r ∉ colW (.of main_c_8) (.of main_v9) (.of main_v10) (.of main_v11) (.of main_v12) (.of main_v13)) :
    after colA V (no_index (Proc.devRef .tc r)) = V (Proc.devRef .tc r) := Ok.pass (col_ok _ _ _ _ _ _ _ _ _) V h
theorem colB_pass (h : r ∉ colW (.of main_c_9) (.of main_v14) (.of main_v15) (.of main_v16) (.of main_v17) (.of main_v18)) :
    after colB V (no_index (Proc.devRef .tc r)) = V (Proc.devRef .tc r) := Ok.pass (col_ok _ _ _ _ _ _ _ _ _) V h
theorem colN_pass (h : r ∉ colW (.of main_c_10) (.of main_v19) (.of main_v20) (.of main_v21) (.of main_v22) (.of main_v23)) :
    after colN V (no_index (Proc.devRef .tc r)) = V (Proc.devRef .tc r) := Ok.pass (col_ok _ _ _ _ _ _ _ _ _) V h
theorem colG_pass (h : r ∉ colW (.of main_c_11) (.of main_v24) (.of main_v25) (.of main_v26) (.of main_v27) (.of main_v28)) :
    after colG V (no_index (Proc.devRef .tc r)) = V (Proc.devRef .tc r) := Ok.pass (col_ok _ _ _ _ _ _ _ _ _) V h
theorem fin_pass (h : r ∉ finW) : after fin V (no_index (Proc.devRef .tc r)) = V (Proc.devRef .tc r) := Ok.pass fin_ok V h

end Stretches

/-! ## The stretches chained -/

set_option maxRecDepth 16384 in
set_option maxHeartbeats 4000000 in
/-- After the whole line the last buffer holds the reference's composed term of the three arguments. -/
theorem out_eq (V : Valuation τ sig (Elt F)) :
    after ops V (main_v33 : DevRef τ sig)
      = RefValue.refOut (F := F) (V (main_arg0 : DevRef τ sig)) (V (main_arg1 : DevRef τ sig)) (V (main_arg2 : DevRef τ sig)) := by
  unfold ops
  simp only [after_app]
  simp (disch := decide) only [fin_res, colG_res, colN_res, colB_res, colA_res, comp_res, lsm2_res, lsm1_res, lsm0_res,
    pre_c, pre_c_0, pre_c_1, pre_c_2, pre_c_3, pre_c_4, pre_c_5, pre_v0,
    fin_pass, colG_pass, colN_pass, colB_pass, colA_pass, comp_pass, lsm2_pass, lsm1_pass, lsm0_pass, pre_pass]
  simp only [RefValue.refOut, RefValue.cols, RefValue.colIdx, RefValue.lnotH]

set_option maxRecDepth 16384 in
/-- The line writes none of the three arguments. -/
theorem arg0_eq (V : Valuation τ sig (Elt F)) : after ops V (main_arg0 : DevRef τ sig) = V (main_arg0 : DevRef τ sig) := by
  unfold ops
  simp only [after_app]
  simp (disch := decide) only [fin_pass, colG_pass, colN_pass, colB_pass, colA_pass, comp_pass, lsm2_pass, lsm1_pass,
    lsm0_pass, pre_pass]
set_option maxRecDepth 16384 in
theorem arg1_eq (V : Valuation τ sig (Elt F)) : after ops V (main_arg1 : DevRef τ sig) = V (main_arg1 : DevRef τ sig) := by
  unfold ops
  simp only [after_app]
  simp (disch := decide) only [fin_pass, colG_pass, colN_pass, colB_pass, colA_pass, comp_pass, lsm2_pass, lsm1_pass,
    lsm0_pass, pre_pass]
set_option maxRecDepth 16384 in
theorem arg2_eq (V : Valuation τ sig (Elt F)) : after ops V (main_arg2 : DevRef τ sig) = V (main_arg2 : DevRef τ sig) := by
  unfold ops
  simp only [after_app]
  simp (disch := decide) only [fin_pass, colG_pass, colN_pass, colB_pass, colA_pass, comp_pass, lsm2_pass, lsm1_pass,
    lsm0_pass, pre_pass]

/-! ## The run -/

/-- Every line touches TensorCore buffers only. -/
theorem ops_sub : (ops (F := F)).Forall fun op => op.bufs ⊆ tcRefs τ sig := by
  unfold ops
  simp only [List.forall_append]
  exact ⟨Ok.sub pre_ok, Ok.sub (lsm_ok _ _), Ok.sub (lsm_ok _ _), Ok.sub (lsm_ok _ _), Ok.sub comp_ok, Ok.sub (col_ok _ _ _ _ _ _ _ _ _),
    Ok.sub (col_ok _ _ _ _ _ _ _ _ _), Ok.sub (col_ok _ _ _ _ _ _ _ _ _), Ok.sub (col_ok _ _ _ _ _ _ _ _ _), Ok.sub fin_ok⟩

/-- Every line determines its results. -/
theorem ops_fresh : (ops (F := F)).Forall fun op => op.fresh = ∅ := by
  unfold ops
  simp only [List.forall_append]
  exact ⟨Ok.fresh pre_ok, Ok.fresh (lsm_ok _ _), Ok.fresh (lsm_ok _ _), Ok.fresh (lsm_ok _ _), Ok.fresh comp_ok,
    Ok.fresh (col_ok _ _ _ _ _ _ _ _ _), Ok.fresh (col_ok _ _ _ _ _ _ _ _ _), Ok.fresh (col_ok _ _ _ _ _ _ _ _ _),
    Ok.fresh (col_ok _ _ _ _ _ _ _ _ _), Ok.fresh fin_ok⟩

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of
    @main terminates with the result buffer at the reference's composed term of the three arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33) = Cert.ReferenceIdeal.RefValue.refOut (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v33).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ
      (fun _ => List.forall_iff_forall_mem.mp ops_fresh))

end Cert.ReferenceIdeal.RefRun

end
-- ==== Proof.RefTerms.lean ====
/-
  The reference's gathers, mask and row sum read at one index, with its log-softmax kept opaque.

  For four arrays `la lb lg ln` of shape `[4194304, 8]` (in the reference: the log-softmax of the three inputs and the
  clamped complement of the third) the reference gathers thirty-six columns of each through constant tables of column
  numbers, chooses per column between the complement's and the log-softmax's gathered column by a constant table of
  flags, forms `max ((a + b) - c) 0` and sums each row of thirty-six from zero.  Read at row `r` this is zero plus the
  sum over the thirty-six constraints of the specification's term on the four rows `la r`, `lb r`, `lg r`, `ln r`:

  * a gathered column: the gather's dimension numbers make result axis 0 an offset axis over the whole of operand
    axis 0 (start 0, so the coordinate is the row itself) and collapse operand axis 1, whose coordinate is the start
    index read signed and clamped into `[0, 7]`; the start index of column `t` is entry `t` of the table (the wrap
    of a negative entry is switched off by an all-zero mask), and every entry of the three tables is a lane in
    `[0, 7]`, the one the specification's tables list;
  * the flags broadcast over the rows read, at `(r, t)`, the flag of `t`;
  * a sum along axis 1 from an initial value is that value plus the sum over the thirty-six coordinates.
-/
import proofs.«101639_j25400436588776_1_alg».proof.Proof.RefTerm
import proofs.«101639_j25400436588776_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefTerms

open Cert.ReferenceIdeal Cert.ReferenceIdeal.Gen Cert.ReferenceIdeal.RefValue Idealize.ShloMosaic Idealize.ShloMosaic.ValueIdx Cert.Spec

/-! ## The column gather -/

/-- A start index read as a lane: signed, clamped into `[0, 7]`. -/
def lane (v : BitVec 32) : Fin 8 := ⟨min v.toInt.toNat 7, by omega⟩

/-- The gather at `(r, t)`: row `r` of the operand, at the lane the start index of column `t` names. -/
theorem gather_cols_apply {α : Type} (x : S4194304x8.Idx → α) (idx : IVec S36x1 32) (r : Fin 4194304) (t : Fin 36) :
    Host.gather gather_S4194304x8_S36x1_S4194304x36_0_1_n_n_1_1_41943041 x idx (ix2 r t)
      = x (ix2 r (lane (idx (ix2 t (0 : Fin 1))))) := by
  unfold Host.gather
  refine congrArg x (funext fun a => Fin.ext ?_)
  match a with
  | ⟨0, _⟩ =>
    -- axis 0 is not indexed (start 0), not a batching axis, and is the one kept axis: the result's row
    show GatherDims.start _ (ix2 r t) idx 0 + GatherDims.batchCoord _ (ix2 r t) 0 + GatherDims.offCoord _ (ix2 r t) 0 = r.val
    rw [GatherDims.batchCoord_eq_zero _ _ _ List.not_mem_nil]
    unfold GatherDims.start
    rw [dif_neg (by decide)]
    unfold GatherDims.offCoord
    rw [dif_pos (by decide)]
    simp only [Nat.zero_add]
    rfl
  | ⟨1, _⟩ =>
    -- axis 1 is the indexed, collapsed one: the clamped start index, no batch and no offset coordinate
    show GatherDims.start _ (ix2 r t) idx 1 + GatherDims.batchCoord _ (ix2 r t) 1 + GatherDims.offCoord _ (ix2 r t) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (by decide)]
    have hsi : GatherDims.siIdx gather_S4194304x8_S36x1_S4194304x36_0_1_n_n_1_1_41943041 (ix2 r t)
        ⟨List.idxOf (1 : Fin 2) gather_S4194304x8_S36x1_S4194304x36_0_1_n_n_1_1_41943041.startIndexMap,
          List.idxOf_lt_length_iff.2 (by decide)⟩ = ix2 t (0 : Fin 1) := by
      funext b; refine Fin.ext ?_
      match b with
      | ⟨0, _⟩ => rfl
      | ⟨1, _⟩ => rfl
    rw [hsi]
    rfl

/-- The start indices: the all-zero mask keeps the table's own entry, laid as a column. -/
theorem colIdx_apply (c : IVec S36 32) (t : Fin 36) : colIdx c (ix2 t (0 : Fin 1)) = c (ix1 t) := by
  unfold colIdx
  refine (broadcastInDim_apply ![0] bcast_S36_S36x1_0 _ (ix2 t (0 : Fin 1)) (ix1 t) (fun a => ?_)).trans ?_
  · match a with
    | ⟨0, _⟩ => rfl
  · rw [select_apply]
    exact select_zero _ _

/-- The gathered columns at `(r, t)`: row `r` at the lane entry `t` of the table names. -/
theorem cols_apply (x : FVec Ideal S4194304x8 .f32) (c : IVec S36 32) (r : Fin 4194304) (t : Fin 36) :
    cols (F := Ideal) x c (ix2 r t) = x (ix2 r (lane (c (ix1 t)))) := by
  unfold cols
  rw [gather_cols_apply, colIdx_apply]

/-! ## The tables -/

/-- Entry `t` of a table of thirty-six sits at row-major position `t`. -/
theorem rowMajor_ix1 (t : Fin 36) : S36.rowMajor (ix1 t) = t := Fin.ext (Shape.rowMajor_val_one (ix1 t))

theorem lane_lit0 : ∀ t : Fin 36, lane (lit0 t) = tabA t := by decide
theorem lane_lit1 : ∀ t : Fin 36, lane (lit1 t) = tabB t := by decide
theorem lane_lit2 : ∀ t : Fin 36, lane (lit2 t) = tabG t := by decide
theorem flag_lit3 : ∀ t : Fin 36, lit3 t = (bif tabN t then 1#1 else 0#1) := by decide

theorem cols_lit0 (x : FVec Ideal S4194304x8 .f32) (r : Fin 4194304) (t : Fin 36) :
    cols (F := Ideal) x (fun i => lit0 (S36.rowMajor i)) (ix2 r t) = x (ix2 r (tabA t)) := by
  rw [cols_apply]
  show x (ix2 r (lane (lit0 (S36.rowMajor (ix1 t))))) = _
  rw [rowMajor_ix1, lane_lit0]

theorem cols_lit1 (x : FVec Ideal S4194304x8 .f32) (r : Fin 4194304) (t : Fin 36) :
    cols (F := Ideal) x (fun i => lit1 (S36.rowMajor i)) (ix2 r t) = x (ix2 r (tabB t)) := by
  rw [cols_apply]
  show x (ix2 r (lane (lit1 (S36.rowMajor (ix1 t))))) = _
  rw [rowMajor_ix1, lane_lit1]

theorem cols_lit2 (x : FVec Ideal S4194304x8 .f32) (r : Fin 4194304) (t : Fin 36) :
    cols (F := Ideal) x (fun i => lit2 (S36.rowMajor i)) (ix2 r t) = x (ix2 r (tabG t)) := by
  rw [cols_apply]
  show x (ix2 r (lane (lit2 (S36.rowMajor (ix1 t))))) = _
  rw [rowMajor_ix1, lane_lit2]

/-! ## The mask, the zero splat and the row sum -/

/-- A table of thirty-six laid as one row and broadcast over the rows reads, at `(r, t)`, its entry `t`. -/
theorem mask_apply {α : Type} (m : S36.Idx → α) (r : Fin 4194304) (t : Fin 36) :
    broadcastInDim S4194304x36 ![0, 1] bcast_S1x36_S4194304x36_0_1
      (broadcastInDim S1x36 ![1] bcast_S36_S1x36_1 m) (ix2 r t) = m (ix1 t) := by
  refine (broadcastInDim_apply ![0, 1] bcast_S1x36_S4194304x36_0_1 _ (ix2 r t) (ix2 (0 : Fin 1) t) (fun a => ?_)).trans ?_
  · match a with
    | ⟨0, _⟩ => rfl
    | ⟨1, _⟩ => rfl
  · refine broadcastInDim_apply ![1] bcast_S36_S1x36_1 m (ix2 (0 : Fin 1) t) (ix1 t) (fun a => ?_)
    match a with
    | ⟨0, _⟩ => rfl

/-- The zero splat reads the word for zero everywhere. -/
theorem zeros_apply (r : Fin 4194304) (t : Fin 36) :
    broadcastInDim S4194304x36 ![] bcast_S_S4194304x36 (constant (F := Ideal) S_ .f32 0x00000000#32) (ix2 r t)
      = Cert.Spec.zero := rfl

/-- Row `r` with column `k` put back is `(r, k)`. -/
theorem lift_row (h : S4194304x36.Reduces [1] S4194304) (r : Fin 4194304) (k : Fin (S4194304x36.size 1)) :
    h.lift (ix1 r) k = ix2 r (⟨k.val, k.isLt⟩ : Fin 36) := by
  funext c; apply Fin.ext
  match c with
  | ⟨0, _⟩ => rfl
  | ⟨1, _⟩ => rfl

/-- The sum along the thirty-six columns from the zero word, at row `r`: that word plus the sum of the row. -/
theorem rowSum_apply (X : FVec Ideal S4194304x36 .f32) (r : Fin 4194304) :
    Host.reduceAdd (F := Ideal) X (constant (F := Ideal) S_ .f32 0x00000000#32) reducesTo_S4194304x36_S4194304_d1 h_S_ (ix1 r)
      = Cert.Spec.zero + ∑ t : Fin 36, X (ix2 r t) := by
  have hr : S4194304x36.Reduces [1] S4194304 :=
    ⟨reducesTo_S4194304x36_S4194304_d1.1, Nat.one_pos, reducesTo_S4194304x36_S4194304_d1.2⟩
  refine (Ideal.hostReduceAdd_single reducesTo_S4194304x36_S4194304_d1 hr X Cert.Spec.zero (ix1 r)).trans ?_
  refine congrArg (Cert.Spec.zero + ·) ?_
  show ∑ k : Fin 36, X (hr.lift (ix1 r) k) = ∑ t : Fin 36, X (ix2 r t)
  exact Finset.sum_congr rfl fun k _ => congrArg X (lift_row hr r k)

/-! ## The outer shell over four opaque arrays, and the reference's result -/

/-- The reference's gathers, select, clamp and row sum over ANY four arrays, at row `r`. -/
theorem shell_apply (la lb lg ln : FVec Ideal S4194304x8 .f32) (r : Fin 4194304) :
    Host.reduceAdd (F := Ideal)
      (maximumf
        (subf (addf (cols (F := Ideal) la (fun i => lit0 (S36.rowMajor i))) (cols (F := Ideal) lb (fun i => lit1 (S36.rowMajor i))))
          (select
            (broadcastInDim S4194304x36 ![0, 1] bcast_S1x36_S4194304x36_0_1
              (broadcastInDim S1x36 ![1] bcast_S36_S1x36_1 (fun i => lit3 (S36.rowMajor i))))
            (cols (F := Ideal) ln (fun i => lit2 (S36.rowMajor i))) (cols (F := Ideal) lg (fun i => lit2 (S36.rowMajor i)))))
        (broadcastInDim S4194304x36 ![] bcast_S_S4194304x36 (constant (F := Ideal) S_ .f32 0x00000000#32)))
      (constant (F := Ideal) S_ .f32 0x00000000#32) reducesTo_S4194304x36_S4194304_d1 h_S_ (ix1 r)
    = Cert.Spec.zero + ∑ t : Fin 36, Cert.Spec.termOf (fun j => la (ix2 r j)) (fun j => lb (ix2 r j))
        (fun j => lg (ix2 r j)) (fun j => ln (ix2 r j)) (tabA t) (tabB t) (tabG t) (tabN t) := by
  refine (rowSum_apply _ r).trans ?_
  refine congrArg (Cert.Spec.zero + ·) (Finset.sum_congr rfl fun t _ => ?_)
  rw [maximumf_apply, subf_apply, addf_apply, select_apply, mask_apply, zeros_apply, cols_lit0, cols_lit1, cols_lit2, cols_lit2]
  show max ((la (ix2 r (tabA t)) + lb (ix2 r (tabB t)))
      - Scalar.select (lit3 (S36.rowMajor (ix1 t))) (ln (ix2 r (tabG t))) (lg (ix2 r (tabG t)))) Cert.Spec.zero = _
  rw [rowMajor_ix1, flag_lit3]
  unfold Cert.Spec.termOf
  cases tabN t
  · rw [show (bif false then (1#1 : BitVec 1) else 0#1) = 0#1 from rfl, select_zero]; rfl
  · rw [show (bif true then (1#1 : BitVec 1) else 0#1) = 1#1 from rfl, select_one]; rfl

/-- The reference's result at row `r`: zero plus the thirty-six terms of the specification on the rows of the
    three log-softmax arrays and of the complement. -/
theorem refOut_apply (a b g : FVec Ideal S4194304x8 .f32) (r : Fin 4194304) :
    refOut (F := Ideal) a b g (ix1 r)
      = Cert.Spec.zero + ∑ t : Fin 36, Cert.Spec.termOf (fun j => lsmH (F := Ideal) a (ix2 r j)) (fun j => lsmH (F := Ideal) b (ix2 r j))
          (fun j => lsmH (F := Ideal) g (ix2 r j)) (fun j => lnotH (F := Ideal) g (ix2 r j)) (tabA t) (tabB t) (tabG t) (tabN t) := by
  unfold refOut
  exact shell_apply (lsmH (F := Ideal) a) (lsmH (F := Ideal) b) (lsmH (F := Ideal) g) (lnotH (F := Ideal) g) r

end Cert.ReferenceIdeal.RefTerms

end
-- ==== Proof.RefSoftmax.lean ====
/-
  The reference's log-softmax and its clamped complement, read at one element, at the ideal values.

  For an array `x` of `[4194304, 8]` extended reals, the host's log-softmax `lsmH x` at row `r`, lane `j` is the
  row-local `lsm` of the specification applied to row `r` of `x`, and `lnotH g` is its `lnot`.  The steps:

  * a reduce with a maximum body over the lanes, from `-∞`, is at row `r` the fold of `max` from `-∞` over the
    row's eight entries; the reference joins the result once more with a splat of `-∞`, and
    `max b (fold max b f) = fold max b f` because the start value is below the fold (no word is evaluated);
  * a vector broadcast to a column and the column broadcast along the lanes read, at `(r, j)`, the vector at `r`;
    a scalar broadcast reads the scalar everywhere;
  * the host's exponential and logarithm act element by element;
  * a reduce with an add body over the lanes, from `0`, is at row `r` the sum of the row's eight entries
    (`0 + s = s`);
  * a difference of arrays is the difference of the elements, and `max` commutes.
-/
import proofs.«101639_j25400436588776_1_alg».proof.Proof.RefTerm
import proofs.«101639_j25400436588776_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.ReferenceIdeal.RefSoftmax

open Cert.ReferenceIdeal Cert.ReferenceIdeal.Gen Cert.ReferenceIdeal.RefValue Idealize.ShloMosaic Idealize.ShloMosaic.ValueIdx

/-! ## Indices and layout operations -/

/-- The shape condition of a reduction over the lanes, in the form that names the inserted index. -/
theorem reducesLanes : S4194304x8.Reduces [1] S4194304 :=
  ⟨reducesTo_S4194304x8_S4194304_d1.1, Nat.one_pos, reducesTo_S4194304x8_S4194304_d1.2⟩

/-- Row `r` with lane `k` put back is `(r, k)`. -/
theorem lift_ix2 (h : S4194304x8.Reduces [1] S4194304) (r : Fin 4194304) (k : Fin 8) :
    h.lift (ix1 r) k = ix2 r k := by
  funext c; apply Fin.ext
  fin_cases c <;> rfl

/-- A scalar broadcast to any shape reads the scalar at every index. -/
theorem broadcastInDim_scalar_apply {t : Shape} {α : Type} (h : S_.BroadcastsInDim t (![] : Fin 0 → Fin t.rank))
    (y : S_.Idx → α) (j : t.Idx) : broadcastInDim t ![] h y j = y ix0 :=
  broadcastInDim_apply ![] h y j ix0 (fun a => a.elim0)

/-- A vector of row values broadcast to a one-lane column reads, at `(r, u)`, the vector at `r`. -/
theorem broadcastInDim_col_apply {α : Type} (h : S4194304.BroadcastsInDim S4194304x1 (![0] : Fin 1 → Fin S4194304x1.rank))
    (v : S4194304.Idx → α) (r : Fin 4194304) (u : Fin 1) :
    broadcastInDim S4194304x1 ![0] h v (ix2 r u) = v (ix1 r) := by
  refine broadcastInDim_apply ![0] h v (ix2 r u) (ix1 r) ?_
  intro a
  fin_cases a
  show r.val = if (4194304 : ℕ) = 1 then 0 else r.val
  rw [if_neg (by decide)]

/-- A one-lane column broadcast along the eight lanes reads, at `(r, j)`, the column at `(r, 0)`. -/
theorem broadcastInDim_lanes_apply {α : Type}
    (h : S4194304x1.BroadcastsInDim S4194304x8 (![0, 1] : Fin 2 → Fin S4194304x8.rank))
    (v : S4194304x1.Idx → α) (r : Fin 4194304) (j : Fin 8) :
    broadcastInDim S4194304x8 ![0, 1] h v (ix2 r j) = v (ix2 r (0 : Fin 1)) := by
  refine broadcastInDim_apply ![0, 1] h v (ix2 r j) (ix2 r (0 : Fin 1)) ?_
  intro a
  fin_cases a
  · show r.val = if (4194304 : ℕ) = 1 then 0 else r.val
    rw [if_neg (by decide)]
  · show (0 : ℕ) = if (1 : ℕ) = 1 then 0 else j.val
    rw [if_pos rfl]

/-- The two broadcasts one after the other: a vector of row values laid along the lanes reads, at `(r, j)`, the
    vector at `r`. -/
theorem broadcastInDim_rows_apply {α : Type}
    (h1 : S4194304x1.BroadcastsInDim S4194304x8 (![0, 1] : Fin 2 → Fin S4194304x8.rank))
    (h0 : S4194304.BroadcastsInDim S4194304x1 (![0] : Fin 1 → Fin S4194304x1.rank))
    (v : S4194304.Idx → α) (r : Fin 4194304) (j : Fin 8) :
    broadcastInDim S4194304x8 ![0, 1] h1 (broadcastInDim S4194304x1 ![0] h0 v) (ix2 r j) = v (ix1 r) :=
  (broadcastInDim_lanes_apply h1 _ r j).trans (broadcastInDim_col_apply h0 v r 0)

/-! ## The elementwise host functions and the two reductions -/

/-- The host's exponential at an index is the exponential of the element. -/
theorem hostExp_apply {s : Shape} (y : FVec Ideal s .f32) (i : s.Idx) : Host.exp y i = Ideal.exp (y i) := rfl

/-- The host's logarithm at an index is the logarithm of the element. -/
theorem hostLog_apply {s : Shape} (y : FVec Ideal s .f32) (i : s.Idx) : Host.log y i = Ideal.log (y i) := rfl

/-- From `-∞` the host's reduce with a maximum body over the lanes is, at row `r`, the row's maximum. -/
theorem hostReduce_max_row (x : FVec Ideal S4194304x8 .f32) (h' : S4194304x8.ReducesTo [1] S4194304)
    (h : S4194304x8.Reduces [1] S4194304) (hu : 0 < S_.numel) (r : Fin 4194304) :
    Host.reduce FloatOps.maximumf x (constant (F := Ideal) S_ .f32 0xFF800000#32) h' hu (ix1 r)
      = Cert.Spec.rmax (fun k => x (ix2 r k)) := by
  refine (Host.reduce_eq_fold_single FloatOps.maximumf x _ h' h hu (ix1 r)).trans ?_
  have hf : (fun k : Fin 8 => x (h.lift (ix1 r) k)) = fun k : Fin 8 => x (ix2 r k) :=
    funext fun k => congrArg x (lift_ix2 h r k)
  exact congrArg (fun f : Fin 8 → EReal => Finset.fold max Cert.Spec.negInf f (Finset.univ : Finset (Fin 8))) hf

/-- From `0` the host's reduce with an add body over the lanes is, at row `r`, the sum of the row. -/
theorem hostReduceAdd_row (y : FVec Ideal S4194304x8 .f32) (h' : S4194304x8.ReducesTo [1] S4194304)
    (h : S4194304x8.Reduces [1] S4194304) (hu : 0 < S_.numel) (r : Fin 4194304) :
    Host.reduceAdd (F := Ideal) y (constant (F := Ideal) S_ .f32 0x00000000#32) h' hu (ix1 r)
      = ∑ k : Fin 8, y (ix2 r k) := by
  refine (Ideal.hostReduceAdd_single h' h y (Ideal.ofBits .f32 0x00000000#32) (ix1 r)).trans ?_
  rw [Ideal.ofBits_zero_f32, zero_add]
  have hf : (fun k : Fin 8 => y (h.lift (ix1 r) k)) = fun k : Fin 8 => y (ix2 r k) :=
    funext fun k => congrArg y (lift_ix2 h r k)
  exact congrArg (fun f : Fin 8 → EReal => ∑ k : Fin 8, f k) hf

/-! ## The reference's stages at an index -/

/-- The row maxima as the host computes them: the extra join with a splat of `-∞` changes nothing, the fold
    having started from `-∞`. -/
theorem rowMaxH_apply (x : FVec Ideal S4194304x8 .f32) (r : Fin 4194304) :
    rowMaxH (F := Ideal) x (ix1 r) = Cert.Spec.rmax (fun k => x (ix2 r k)) := by
  unfold rowMaxH
  refine (maximumf_apply _ _ (ix1 r)).trans ?_
  rw [hostReduce_max_row x _ reducesLanes _ r, broadcastInDim_scalar_apply]
  exact max_eq_right ((Finset.le_fold_max _).2 (Or.inl le_rfl))

/-- The shifted array at `(r, j)` is the row's entry minus the row's maximum. -/
theorem shiftH_apply (x : FVec Ideal S4194304x8 .f32) (r : Fin 4194304) (j : Fin 8) :
    shiftH (F := Ideal) x (ix2 r j) = Cert.Spec.shift (fun k => x (ix2 r k)) j := by
  unfold shiftH Cert.Spec.shift
  refine (subf_apply _ _ (ix2 r j)).trans ?_
  refine congrArg (fun z => x (ix2 r j) - z) ?_
  exact (broadcastInDim_rows_apply _ _ _ r j).trans (rowMaxH_apply x r)

/-- The logarithm of the row sums of the shifted array's exponentials, laid along the lanes, at `(r, j)`. -/
theorem lseH_apply (x : FVec Ideal S4194304x8 .f32) (r : Fin 4194304) (j : Fin 8) :
    broadcastInDim S4194304x8 ![0, 1] bcast_S4194304x1_S4194304x8_0_1
      (Host.log (broadcastInDim S4194304x1 ![0] bcast_S4194304_S4194304x1_0
        (Host.reduceAdd (Host.exp (shiftH (F := Ideal) x)) (constant (F := Ideal) S_ .f32 0x00000000#32)
          reducesTo_S4194304x8_S4194304_d1 h_S_))) (ix2 r j)
      = Cert.Spec.lse (fun k => x (ix2 r k)) := by
  unfold Cert.Spec.lse
  refine (broadcastInDim_lanes_apply _ _ r j).trans ?_
  refine (hostLog_apply _ _).trans (congrArg Ideal.log ?_)
  refine (broadcastInDim_col_apply _ _ r 0).trans ?_
  refine (hostReduceAdd_row _ _ reducesLanes _ r).trans ?_
  refine Finset.sum_congr rfl fun k _ => ?_
  exact (hostExp_apply _ _).trans (congrArg Ideal.exp (shiftH_apply x r k))

/-- The host's log-softmax at `(r, j)` is the row-local log-softmax of row `r` at lane `j`. -/
theorem lsmH_apply (x : FVec Ideal S4194304x8 .f32) (r : Fin 4194304) (j : Fin 8) :
    lsmH (F := Ideal) x (ix2 r j) = Cert.Spec.lsm (fun k => x (ix2 r k)) j := by
  unfold lsmH Cert.Spec.lsm
  refine (subf_apply _ _ (ix2 r j)).trans ?_
  exact congrArg₂ (fun a b : EReal => a - b) (shiftH_apply x r j) (lseH_apply x r j)

/-- The host's clamped complement at `(r, j)` is the row-local one of row `r` at lane `j`. -/
theorem lnotH_apply (g : FVec Ideal S4194304x8 .f32) (r : Fin 4194304) (j : Fin 8) :
    lnotH (F := Ideal) g (ix2 r j) = Cert.Spec.lnot (fun k => g (ix2 r k)) j := by
  unfold lnotH Cert.Spec.lnot
  refine (hostLog_apply _ _).trans (congrArg Ideal.log ?_)
  refine (maximumf_apply _ _ (ix2 r j)).trans ?_
  refine (max_comm _ _).trans ?_
  refine congrArg₂ (fun a b : EReal => max a b) ?_ ?_
  · refine (subf_apply _ _ (ix2 r j)).trans ?_
    refine congrArg₂ (fun a b : EReal => a - b) ?_ ?_
    · exact broadcastInDim_scalar_apply _ _ _
    · exact (hostExp_apply _ _).trans (congrArg Ideal.exp (lsmH_apply g r j))
  · exact broadcastInDim_scalar_apply _ _ _

end Cert.ReferenceIdeal.RefSoftmax

end
-- ==== Proof.RefRow.lean ====
/-
  The reference's result at a row is the specification of the three argument rows.

  Read at row `r`, the reference's term is `0` plus the sum over the thirty-six constraints of their contributions
  built from its own log-softmax and clamped complement (`refOut_apply`), and those at a lane are the specification's
  (`lsmH_apply`, `lnotH_apply`).
-/
import proofs.«101639_j25400436588776_1_alg».proof.Proof.RefTerms
import proofs.«101639_j25400436588776_1_alg».proof.Proof.RefSoftmax

noncomputable section

namespace Cert.ReferenceIdeal.RefRow

open Cert.ReferenceIdeal Cert.ReferenceIdeal.Gen Cert.ReferenceIdeal.RefValue Idealize.ShloMosaic Idealize.ShloMosaic.ValueIdx

/-- The reference's result at row `r` is the specification of the three argument rows `r`. -/
theorem refOut_row (a b g : FVec Ideal S4194304x8 .f32) (r : Fin 4194304) :
    refOut (F := Ideal) a b g (ix1 r)
      = Cert.Spec.rowResult (fun j => a (ix2 r j)) (fun j => b (ix2 r j)) (fun j => g (ix2 r j)) := by
  rw [Cert.ReferenceIdeal.RefTerms.refOut_apply]
  simp only [Cert.ReferenceIdeal.RefSoftmax.lsmH_apply, Cert.ReferenceIdeal.RefSoftmax.lnotH_apply]
  rfl

end Cert.ReferenceIdeal.RefRow

end
-- ==== Proof.lean ====
/-
  The certificate: the Pallas kernel of the thirty-six-term constraint loss against its jnp reference.

  Both programs compute, for every row of the three `[4194304, 8]` inputs, the log-softmax of each input along its
  eight lanes, for the third input also the logarithm of its complement clamped below at `ε`, and `0` plus the sum
  over thirty-six constraints of `max ((la[ai] + lb[bi]) - c[gi]) 0` (Proof/Spec.lean).  The kernel does it on 128
  blocks of 32768 rows with static lane slices and a running sum (Proof/KernelSoftmax.lean, Proof/KernelChain.lean,
  Proof/KernelRow.lean, Proof/KernelArray.lean); the reference with gathers through constant tables, a select on a
  constant mask and a row sum (Proof/RefTerm.lean, Proof/RefRun.lean, Proof/RefSoftmax.lean, Proof/RefTerms.lean,
  Proof/RefRow.lean).  On the extended reals the two differ only by laws that hold everywhere — `max` commutes, a
  maximum folded from `-∞` absorbs one more `-∞`, and `+` is associative — so the precondition is never opened.
  The ideal pass rewrote nothing, so `preserves` is trivial; the kernels' frames are the generated frame certificates (Proof/KernelFrame.lean,
  Proof/KernelIdealFrame.lean), and the reference's frame is its run with the result dropped.
-/
import proofs.«101639_j25400436588776_1_alg».proof.Defs
import proofs.«101639_j25400436588776_1_alg».proof.Proof.Gen.Kernel
import proofs.«101639_j25400436588776_1_alg».proof.Proof.Gen.Kernel.Skeleton
import proofs.«101639_j25400436588776_1_alg».proof.Proof.Gen.Kernel.Launch
import proofs.«101639_j25400436588776_1_alg».proof.Proof.Gen.Kernel.Points
import proofs.«101639_j25400436588776_1_alg».proof.Proof.Gen.KernelIdeal
import proofs.«101639_j25400436588776_1_alg».proof.Proof.Gen.KernelIdeal.Skeleton
import proofs.«101639_j25400436588776_1_alg».proof.Proof.Gen.KernelIdeal.Launch
import proofs.«101639_j25400436588776_1_alg».proof.Proof.Gen.KernelIdeal.Points
import proofs.«101639_j25400436588776_1_alg».proof.Proof.Gen.ReferenceIdeal
import proofs.«101639_j25400436588776_1_alg».proof.Proof.Gen.Pre_finite_inputs
import proofs.«101639_j25400436588776_1_alg».proof.Proof.KernelFrame
import proofs.«101639_j25400436588776_1_alg».proof.Proof.KernelRow
import proofs.«101639_j25400436588776_1_alg».proof.Proof.RefRun
import proofs.«101639_j25400436588776_1_alg».proof.Proof.RefRow
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- At the ideal values the kernel's result array is, entry by entry, the specification of the three argument rows,
    and so is the reference's: from memories that agree on the arguments both runs end at the same array. -/
theorem algebraic : Cert.algebraic_KernelIdeal_ReferenceIdeal := by
  intro m ρ m' ρ' _ hagree
  refine ⟨_, Cert.KernelIdeal.ArrayValue.run m ρ Cert.KernelIdeal.ArrayValue.out_row, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  funext i
  obtain ⟨r, rfl⟩ : ∃ r : Fin 4194304, i = ix1 r := ⟨i 0, eq_ix1 i⟩
  exact Cert.ReferenceIdeal.RefRow.refOut_row _ _ _ r

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
